-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S1024x4096 : Shape := ⟨2, ![1024, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S4096x4096 .f32) (main_arg1 : FVec F S4096x4096 .f32) (main_arg2 : FVec F S1024x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  main_v13
-- ==== Kernel.lean ====
abbrev S4096x4096 : Shape := ⟨2, ![4096, 4096]⟩
abbrev S1024x4096 : Shape := ⟨2, ![1024, 4096]⟩
abbrev S4096x256 : Shape := ⟨2, ![4096, 256]⟩
abbrev S512x256 : Shape := ⟨2, ![512, 256]⟩
abbrev S1024x512 : Shape := ⟨2, ![1024, 512]⟩
abbrev S1024x256 : Shape := ⟨2, ![1024, 256]⟩

abbrev nBuf : Space → Nat
  | .hbm => 4
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1024x4096, .f32⟩
  | .hbm, ⟨3, _⟩ => ⟨S1024x4096, .f32⟩
  | .local _ .vmem, ⟨0, _⟩ => ⟨S1024x4096, .f32⟩
  | .local _ .vmem, ⟨1, _⟩ => ⟨S4096x256, .f32⟩
  | .local _ .vmem, ⟨2, _⟩ => ⟨S4096x256, .f32⟩
  | .local _ .vmem, ⟨3, _⟩ => ⟨S512x256, .f32⟩
  | .local _ .vmem, ⟨4, _⟩ => ⟨S512x256, .f32⟩
  | .local _ .vmem, ⟨5, _⟩ => ⟨S1024x512, .f32⟩
  | .local _ .vmem, ⟨6, _⟩ => ⟨S1024x512, .f32⟩
  | .local _ .vmem, ⟨7, _⟩ => ⟨S1024x4096, .bf16⟩
  | .local _ .vmem, ⟨8, _⟩ => ⟨S1024x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let c0_16 : Index := 0#32
  let arg1 : BitVec 32 := BitVec.ofNat 32 (i 1).val
  let c256_i32_15 : BitVec 32 := 256#32
  let v25 : BitVec 32 := Scalar.muli arg1 c256_i32_15
  let v26 : Index := Scalar.indexCast v25
  ![0, v26.toNat]
def k0_off2 (i : grid0.Coords) : Fin 2 → Nat :=
  let c0 : Index := 0#32
  let arg1 : BitVec 32 := BitVec.ofNat 32 (i 1).val
  let c256_i32 : BitVec 32 := 256#32
  let v8 : BitVec 32 := Scalar.muli arg1 c256_i32
  let v9 : Index := Scalar.indexCast v8
  ![0, v9.toNat]
def k0_cond3 (i : grid0.Coords) : BitVec 1 :=
  let arg1 : BitVec 32 := BitVec.ofNat 32 (i 1).val
  let c0_i32_6 : BitVec 32 := 0#32
  let v14 : BitVec 1 := Scalar.cmpi .eq arg1 c0_i32_6
  let v15 : BitVec 32 := Scalar.extui v14
  let c0_i32_7 : BitVec 32 := 0#32
  let v16 : BitVec 1 := Scalar.cmpi .ne v15 c0_i32_7
  v16

def k0_cond4 (i : grid0.Coords) : BitVec 1 :=
  let arg1 : BitVec 32 := BitVec.ofNat 32 (i 1).val
  let c0_i32_8 : BitVec 32 := 0#32
  let v17 : BitVec 1 := Scalar.cmpi .sgt arg1 c0_i32_8
  let v18 : BitVec 32 := Scalar.extui v17
  let c0_i32_9 : BitVec 32 := 0#32
  let v19 : BitVec 1 := Scalar.cmpi .ne v18 c0_i32_9
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c15_i32 : BitVec 32 := 15#32
  let v1 : BitVec 32 := Scalar.select v0 arg1 c15_i32
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1024x4096_S1024x4096_0_0 : ∀ a, (![0, 0] : Fin 2 → Nat) a + S1024x4096.size a ≤ S1024x4096.size a
  h_S1024x4096 : 0 < S1024x4096.numel
  bitsLt_bf16_f32 : FTy.bits .bf16 < FTy.bits .f32
  shapeCasts_S1024x4096_S1024x4096 : S1024x4096.ShapeCasts S1024x4096
  packedbf16_S1024x4096_S1024x4096_0_0 : (Rect.unit (s := S1024x4096) ![0, 0] S1024x4096.size inb_S1024x4096_S1024x4096_0_0).PackedRows (EltTy.packing .bf16)
  inb_S4096x256_S4096x256_0_0 : ∀ a, (![0, 0] : Fin 2 → Nat) a + S4096x256.size a ≤ S4096x256.size a
  h_S4096x256 : 0 < S4096x256.numel
  h_S1024x256 : 0 < S1024x256.numel
  shapeCasts_S1024x256_S1024x256 : S1024x256.ShapeCasts S1024x256
  inb_S512x256_S512x256_0_0 : ∀ a, (![0, 0] : Fin 2 → Nat) a + S512x256.size a ≤ S512x256.size a
  h_S512x256 : 0 < S512x256.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  dot_S1024x4096_S4096x256_S1024x256_1_0_0_1_n_n_wf : DotDims.WF S1024x4096 S4096x256 S1024x256 [1] [0] [0] [1] [] []
  dot_S1024x256_S512x256_S1024x512_1_1_0_0_n_n_wf : DotDims.WF S1024x256 S512x256 S1024x512 [1] [1] [0] [0] [] []
  hrank0 : 0 < grid0.rank
  k0_off1_inb : ∀ i : grid0.Coords, ∀ (k0_h2 : k0_cond2 i = 1#1), ∀ a, (k0_off1 i) a + S1024x256.size a ≤ S1024x4096.size a
  k0_off1_packedbf16 : ∀ i : grid0.Coords, ∀ (k0_h2 : k0_cond2 i = 1#1), (Rect.unit (s := S1024x4096) (k0_off1 i) S1024x256.size (k0_off1_inb i k0_h2)).PackedRows (EltTy.packing .bf16)
  k0_off2_inb : ∀ i : grid0.Coords, ∀ a, (k0_off2 i) a + S1024x256.size a ≤ S1024x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S1024x4096.size a
  hwx0_0 : ∀ i : grid0.Coords, EltTy.bits .f32 = 32 ∨ (Rect.block (s := S1024x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x4096.size a
  hwx0_1 : ∀ i : grid0.Coords, EltTy.bits .f32 = 32 ∨ (Rect.block (s := S4096x4096) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x4096.size a
  hwx0_2 : ∀ i : grid0.Coords, EltTy.bits .f32 = 32 ∨ (Rect.block (s := S4096x4096) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x4096.size a
  hwx0_3 : ∀ i : grid0.Coords, EltTy.bits .f32 = 32 ∨ (Rect.block (s := S1024x4096) S1024x512.size (cc0_transform_3 i) (hinb0_3 i)).WholeWords (EltTy.packing .f32)

variable [Facts₀]

def dot_S1024x4096_S4096x256_S1024x256_1_0_0_1_n_n : DotDims S1024x4096 S4096x256 S1024x256 where
  lhsContracting := [1]
  rhsContracting := [0]
  lhsNonContracting := [0]
  rhsNonContracting := [1]
  lhsBatch := []
  rhsBatch := []
  wf := dot_S1024x4096_S4096x256_S1024x256_1_0_0_1_n_n_wf
def dot_S1024x256_S512x256_S1024x512_1_1_0_0_n_n : DotDims S1024x256 S512x256 S1024x512 where
  lhsContracting := [1]
  rhsContracting := [1]
  lhsNonContracting := [0]
  rhsNonContracting := [0]
  lhsBatch := []
  rhsBatch := []
  wf := dot_S1024x256_S512x256_S1024x512_1_1_0_0_n_n_wf

abbrev win0_0 : Pipeline.Window sig grid0 :=
  Pipeline.Window.ofSpec (Memref.whole main_arg2) S1024x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) && !(k0_cond4 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S1024x4096 : Shape := ⟨2, ![1024, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1024x4096, .f32⟩
  | .hbm, ⟨3, _⟩ => ⟨S4096x4096, .f32⟩
  | .hbm, ⟨4, _⟩ => ⟨S4096x4096, .f32⟩
  | .hbm, ⟨5, _⟩ => ⟨S1024x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  transposes_S4096x4096_S4096x4096_1_0 : S4096x4096.Transposes [1, 0] S4096x4096
  dot_S4096x4096_S4096x4096_S4096x4096_1_0_0_1_n_n_wf : DotDims.WF S4096x4096 S4096x4096 S4096x4096 [1] [0] [0] [1] [] []
  dot_S1024x4096_S4096x4096_S1024x4096_1_0_0_1_n_n_wf : DotDims.WF S1024x4096 S4096x4096 S1024x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S1024x4096_S4096x4096_S1024x4096_1_0_0_1_n_n : DotDims S1024x4096 S4096x4096 S1024x4096 where
  lhsContracting := [1]
  rhsContracting := [0]
  lhsNonContracting := [0]
  rhsNonContracting := [1]
  lhsBatch := []
  rhsBatch := []
  wf := dot_S1024x4096_S4096x4096_S1024x4096_1_0_0_1_n_n_wf

class Facts : Prop extends Facts₀ where

variable [Facts]
-- ==== Proof.BitsCases.lean ====
/-
  The grid of this kernel is 8 × 16: point t = 16·b + k, b the batch tile (512 rows of x, 512 columns of the
  result) and k the contraction tile (256 columns of w and of x). The body has four conditionals:
    (1) b = 0 ∧ k = 0 : the first scratch receives wout, narrowed;
    (2) b = 0         : columns [256k, 256k + 256) of the second scratch receive (first scratch) · (w's tile k);
    (3) k = 0         : the result block is SET to (second scratch's tile k) · (x's tile)ᵀ;
    (4) k > 0         : that product is ADDED to the result block.
  Here each condition is decided over the 128 points in closed form, the result window is shown never idle, and the
  memrefs the body is called with are named.
-/
import proofs.«146342_g75617194213527_cont_sun_c4_20_21_alg».proof.Proof.Gen.Kernel.Frame
import proofs.«146342_g75617194213527_cont_sun_c4_20_21_alg».proof.Proof.Gen.Kernel.Skeleton
import Idealize.ShloMosaic.Lib.Pipeline.FrameBody
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-- Condition (1), b = 0 ∧ k = 0, as the body computes it from the grid coordinates. -/
abbrev cond1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- Condition (2), b = 0. -/
abbrev cond2 (i : grid0.Coords) : Prop := k0_cond2 i = 1#1
/-- Condition (3), k = 0. -/
abbrev cond3 (i : grid0.Coords) : Prop := k0_cond3 i = 1#1
/-- Condition (4), k > 0. -/
abbrev cond4 (i : grid0.Coords) : Prop := k0_cond4 i = 1#1

/-- b = 0 ∧ k = 0 exactly at the first point. -/
theorem hcond1 : ∀ t : Fin cfg0.N, cond1 (grid0.coords t) ↔ t.val = 0 :=
  (by decide +kernel : ∀ t : Fin grid0.N, cond1 (grid0.coords t) ↔ t.val = 0)
/-- b = 0 exactly at the first sixteen points. -/
theorem hcond2 : ∀ t : Fin cfg0.N, cond2 (grid0.coords t) ↔ t.val < 16 :=
  (by decide +kernel : ∀ t : Fin grid0.N, cond2 (grid0.coords t) ↔ t.val < 16)
/-- k = 0 exactly at the multiples of sixteen. -/
theorem hcond3 : ∀ t : Fin cfg0.N, cond3 (grid0.coords t) ↔ t.val % 16 = 0 :=
  (by decide +kernel : ∀ t : Fin grid0.N, cond3 (grid0.coords t) ↔ t.val % 16 = 0)
/-- k > 0 exactly elsewhere. -/
theorem hcond4 : ∀ t : Fin cfg0.N, cond4 (grid0.coords t) ↔ ¬ t.val % 16 = 0 :=
  (by decide +kernel : ∀ t : Fin grid0.N, cond4 (grid0.coords t) ↔ ¬ t.val % 16 = 0)

/-- No window is idle at any point: the result block is stored at every point (set when k = 0, added to otherwise). -/
theorem live0 : ∀ (w : Fin cfg0.W) (t : Fin cfg0.N), cfg0.idle w (grid0.coords t) = false :=
  (by decide +kernel : ∀ (w : Fin 4) (t : Fin grid0.N), idle0 w (grid0.coords t) = false)

/-- The result window is written back at point t exactly when k = 15; so not at t - 1 unless t is a multiple of 16. -/
theorem noFlushBefore (t : Fin cfg0.N) (h : ¬ t.val % 16 = 0) :
    (cfg0.win 3).flush ⟨t.val - 1, Nat.lt_of_le_of_lt (Nat.sub_le _ _) t.isLt⟩ = false := by
  have := (flush0_3 ⟨t.val - 1, Nat.lt_of_le_of_lt (Nat.sub_le _ _) t.isLt⟩).not
  rw [Bool.not_eq_true] at this
  exact this.mpr (by show ¬ (t.val - 1) % 16 = 15; omega)

/-- And it IS written back at t - 1 when t is a positive multiple of 16. -/
theorem flushBefore (t : Fin cfg0.N) (h : t.val % 16 = 0) (hz : t.val ≠ 0) :
    (cfg0.win 3).flush ⟨t.val - 1, Nat.lt_of_le_of_lt (Nat.sub_le _ _) t.isLt⟩ = true :=
  (flush0_3 ⟨t.val - 1, Nat.lt_of_le_of_lt (Nat.sub_le _ _) t.isLt⟩).mpr (by show (t.val - 1) % 16 = 15; omega)

/-- Each window's current staging memref at point t, as the pipeline passes it, and its wholeness. -/
abbrev ms0 (t : Fin cfg0.N) : Memref sig .tc .vmem S1024x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x512 .f32 := win0_3.stage (cfg0.slots t 3)
abbrev hs3 (t : Fin cfg0.N) : (ms3 t).IsWhole := hstage0_3 ((cfg0.slots t 3).cast nbuf0_3)
/-- The two scratch operands: whole buffers of the kernel's own, kept from point to point. -/
abbrev scA : Memref sig .tc .vmem S1024x4096 .bf16 := Memref.whole cc0_scratch0
abbrev scB : Memref sig .tc .vmem S1024x4096 .bf16 := Memref.whole cc0_scratch1
abbrev hscA : (scA).IsWhole := Memref.isWhole_whole _
abbrev hscB : (scB).IsWhole := Memref.isWhole_whole _

/-- Between points the region holds, besides the windows, exactly the two scratch buffers at some contents and the
    generator register at some state. -/
theorem PhiA_eq (c : Dev nD) :
    (Pipeline.ΦA spec0 c : sProp 𝕄)
      = iprop(iprop((∃ d, owns (c : Thread nD τ) scA fullShare d) ∗ (∃ d, owns (c : Thread nD τ) scB fullShare d)) ∗ (∃ r, prngReg c r)) := by
  unfold Pipeline.ΦA; rw [scopedRest0_eq]; simp only [scA, scB, owns_whole]; try rfl

end Cert.Kernel.Body

end
-- ==== Proof.LibReadBack.lean ====
/-
  Reading back what stores through unit-stride rectangles leave in a buffer.

  A buffer is read either whole (the rectangle at zero offsets of the buffer's own sizes) or one tile at a time (a
  rectangle of fixed sizes at some offsets). The lemmas here say, for each of the two:
    * a load of a whole memref held at contents X reads X;
    * after ONE store, a load through the rectangle stored through reads the stored payload, however the (equal)
      offsets of the two rectangles are spelt;
    * after one store, a load through a rectangle that is clear of the stored one along some axis reads what was
      there before.
  All are generic in the shape, the element type and the values.
-/
import Idealize.ShloMosaic.Lib.Pipeline.Value
import Idealize.ShloMosaic.Lib.Pipeline.Frame
import Idealize.ShloMosaic.Lib.WritesUnit

noncomputable section

namespace ReadBack

open Idealize.ShloMosaic

variable {sig : RefSig} {κ : Kind} {sp : Space} {S : Shape} {e : EltTy} {Val : EltTy → Type}

/-- The zero offsets of a rank-2 rectangle, spelt as a literal vector. -/
theorem zero2 : (![0, 0] : Fin 2 → ℕ) = fun _ => 0 := by
  funext a; fin_cases a <;> rfl

/-- A load of the whole of a whole memref held at contents X reads X. -/
theorem readAt_whole_unread {m : Memref sig κ sp S e} (h : m.IsWhole) {off : Fin S.rank → ℕ} (hz : off = fun _ => 0)
    (inb : ∀ a, off a + S.size a ≤ S.size a) (X : S.Idx → Val e) :
    m.view.readAt Val (Rect.unit off S.size inb).toLoadRect (h.unread X) = X := by
  rw [View.readAt_eq_ld, h.read_unread, View.ld_unit_zero hz]

/-- What a buffer reads after ONE store of the whole of it: the payload, whatever it held. -/
theorem read_writes_whole [∀ e, Nonempty (Val e)] (v : View sig κ sp S e) (f : v.ty.Contents Val) {off : Fin S.rank → ℕ}
    (hz : off = fun _ => 0) (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero hz inb y⟩),
    View.canon_unit_zero hz]

/-- A tile read back through the rectangle it was stored through (the two offsets equal, however spelt) is the
    stored payload. -/
theorem readCov_unit_same [∀ e, Nonempty (Val e)] (v : View sig κ sp S e) {off off' size : Fin S.rank → ℕ}
    (inb : ∀ a, off a + size a ≤ S.size a) (inb' : ∀ a, off' a + size a ≤ S.size a) (heq : off = off')
    (w : (Rect.unit off size inb).shape.Idx → Val e) :
    v.readCov [(⟨Rect.unit off size inb, w⟩ : View.Piece Val S e)] (Rect.unit off' size inb').toLoadRect = w := by
  subst heq
  rw [View.readCov_eq_canon v _ _ (fun j => ⟨_, List.mem_singleton_self _, LoadRect.idx_mem _ j⟩)]
  funext j
  exact View.canon_cons_emb (Rect.unit off size inb) w [] j

/-- The tile of contents X at given offsets: X along the rectangle. Equal offsets give equal tiles. -/
theorem ld_congr_off {off off' size : Fin S.rank → ℕ} (inb : ∀ a, off a + size a ≤ S.size a)
    (inb' : ∀ a, off' a + size a ≤ S.size a) (heq : off = off') (X : S.Idx → Val e) :
    View.ld X (Rect.unit off size inb) = View.ld X (Rect.unit off' size inb') := by
  subst heq; rfl

/-- After one store through a tile's rectangle, that tile of the buffer is the payload. -/
theorem ld_read_writes_same (v : View sig κ sp S e) (f : v.ty.Contents Val) {off off' size : Fin S.rank → ℕ}
    (inb : ∀ a, off a + size a ≤ S.size a) (inb' : ∀ a, off' a + size a ≤ S.size a) (heq : off = off')
    (w : (Rect.unit off size inb).shape.Idx → Val e) :
    View.ld (v.read Val (v.writes Val f [(⟨Rect.unit off size inb, w⟩ : View.Piece Val S e)])) (Rect.unit off' size inb') = w := by
  subst heq
  funext j
  exact View.read_writes_cons_emb v f (Rect.unit off size inb) w [] j

/-- After one store through a tile's rectangle, a tile clear of it along axis a is what it was. -/
theorem ld_read_writes_other (v : View sig κ sp S e) (f : v.ty.Contents Val) {off off' size size' : Fin S.rank → ℕ}
    (inb : ∀ a, off a + size a ≤ S.size a) (inb' : ∀ a, off' a + size' a ≤ S.size a)
    (w : (Rect.unit off size inb).shape.Idx → Val e) (a : Fin S.rank)
    (ha : off' a + size' a ≤ off a ∨ off a + size a ≤ off' a) :
    View.ld (v.read Val (v.writes Val f [(⟨Rect.unit off size inb, w⟩ : View.Piece Val S e)])) (Rect.unit off' size' inb')
      = View.ld (v.read Val f) (Rect.unit off' size' inb') := by
  funext j
  show v.read Val (v.writes Val f [(⟨Rect.unit off size inb, w⟩ : View.Piece Val S e)]) ((Rect.unit off' size' inb').emb j) = _
  rw [View.read_writes_cons_unit_of_not_mem v f inb w [] _ rfl a (by
    have hj : ((Rect.unit off' size' inb').emb j a : ℕ) = off' a + 1 * (j a).val := rfl
    have hlt := (j a).isLt
    have hsz : (Rect.unit off' size' inb').shape.size a = size' a := rfl
    rw [hj]; omega)]
  rfl

end ReadBack

end
-- ==== Proof.BitsTiles.lean ====
/-
  The second scratch, a [1024, 4096] buffer, is only ever read and written one TILE at a time: tile k is its columns
  [256k, 256k + 256), k the point's second coordinate. Here: a tile of given contents, the contents with one tile
  replaced, and the two laws that relate them — the replaced tile reads the new value, every other tile reads what it
  did. The offsets the body computes (256 · k, as a 32-bit product) are given in closed form over the grid.
-/
import proofs.«146342_g75617194213527_cont_sun_c4_20_21_alg».proof.Proof.BitsCases
import proofs.«146342_g75617194213527_cont_sun_c4_20_21_alg».proof.Proof.LibReadBack

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

/-- Tile k (k the point's second coordinate) of contents X of the second scratch: its columns [256k, 256k + 256). -/
def getTile (i : grid0.Coords) (X : Vec F S1024x4096 .bf16) : Vec F S1024x256 .bf16 :=
  View.ld X (Rect.unit (s := S1024x4096) (k0_off2 i) S1024x256.size (k0_off2_inb i))

/-- Contents X of the second scratch with tile k replaced by T: what one store of T through the tile's rectangle
    leaves, read back. -/
def putTile (arg7 : Memref sig .tc .vmem S1024x4096 .bf16) (harg7 : arg7.IsWhole) (i : grid0.Coords) (h2 : cond2 i)
    (X : Vec F S1024x4096 .bf16) (T : Vec F S1024x256 .bf16) : Vec F S1024x4096 .bf16 :=
  arg7.view.read (Elt F) (arg7.view.writes (Elt F) (harg7.unread X)
    [(⟨Rect.unit (s := S1024x4096) (k0_off1 i) S1024x256.size (k0_off1_inb i h2), T⟩ : View.Piece (Elt F) S1024x4096 .bf16)])

/-- The replaced tile reads the new value. -/
theorem getTile_putTile_same (arg7 : Memref sig .tc .vmem S1024x4096 .bf16) (harg7 : arg7.IsWhole) (i : grid0.Coords) (h2 : cond2 i)
    (X : Vec F S1024x4096 .bf16) (T : Vec F S1024x256 .bf16) : getTile i (putTile arg7 harg7 i h2 X T) = T := by
  unfold getTile putTile
  exact ReadBack.ld_read_writes_same arg7.view _ (k0_off1_inb i h2) (k0_off2_inb i) rfl T

/-- A tile whose columns are clear of the replaced one's reads what it did. -/
theorem getTile_putTile_other (arg7 : Memref sig .tc .vmem S1024x4096 .bf16) (harg7 : arg7.IsWhole) (i i' : grid0.Coords) (h2 : cond2 i)
    (X : Vec F S1024x4096 .bf16) (T : Vec F S1024x256 .bf16)
    (h : k0_off2 i' 1 + 256 ≤ k0_off1 i 1 ∨ k0_off1 i 1 + 256 ≤ k0_off2 i' 1) :
    getTile i' (putTile arg7 harg7 i h2 X T) = getTile i' X := by
  unfold getTile putTile
  rw [ReadBack.ld_read_writes_other arg7.view _ (k0_off1_inb i h2) (k0_off2_inb i') T 1 h, harg7.read_unread]

/-- The column offset of the tile stored at point t: 256 · k. -/
theorem off1_eq : ∀ t : Fin cfg0.N, k0_off1 (grid0.coords t) 1 = 256 * (t.val % 16) :=
  (by decide +kernel : ∀ t : Fin grid0.N, k0_off1 (grid0.coords t) 1 = 256 * (t.val % 16))
/-- The column offset of the tile loaded at point t: 256 · k. -/
theorem off2_eq : ∀ t : Fin cfg0.N, k0_off2 (grid0.coords t) 1 = 256 * (t.val % 16) :=
  (by decide +kernel : ∀ t : Fin grid0.N, k0_off2 (grid0.coords t) 1 = 256 * (t.val % 16))
/-- Two points with the same k load the same tile: the offsets, as vectors, agree. -/
theorem off2_congr : ∀ t t' : Fin cfg0.N, t.val % 16 = t'.val % 16 → k0_off2 (grid0.coords t) = k0_off2 (grid0.coords t') :=
  (by decide +kernel : ∀ t t' : Fin grid0.N, t.val % 16 = t'.val % 16 → k0_off2 (grid0.coords t) = k0_off2 (grid0.coords t'))

/-- So they read the same tile of any contents. -/
theorem getTile_congr (t t' : Fin cfg0.N) (h : t.val % 16 = t'.val % 16) (X : Vec F S1024x4096 .bf16) :
    getTile (grid0.coords t) X = getTile (grid0.coords t') X := by
  unfold getTile
  exact ReadBack.ld_congr_off _ _ (off2_congr t t' h) X

/-- The result window is stored at every point — set when k = 0, added to when k > 0 —, so it is idle at no coordinates. -/
theorem live3 (i : grid0.Coords) : cfg0.idle 3 i = false :=
  (by decide +kernel : ∀ k : Fin 16,
      (!(Scalar.cmpi .ne (Scalar.extui (Scalar.cmpi .eq (BitVec.ofNat 32 k.val) 0#32)) 0#32 == 1#1)
        && !(Scalar.cmpi .ne (Scalar.extui (Scalar.cmpi .sgt (BitVec.ofNat 32 k.val) 0#32)) 0#32 == 1#1)) = false) (i 1)

end Cert.Kernel.Body

end
-- ==== Proof.BitsRunA.lean ====
/-
  The body at the first point (b = 0, k = 0): the first scratch receives wout narrowed; tile 0 of the second receives
  (that) · (w's tile 0); the result block is set to (that tile) · (x's tile)ᵀ. Each buffer's contents afterwards are stated
  outright, as the body's payloads of the contents before.
-/
import proofs.«146342_g75617194213527_cont_sun_c4_20_21_alg».proof.Proof.BitsTiles

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]
local notation "𝕄" => MT nD τ sig Unit (Elt F) ℕ (UR sig nD τ) ℕ

set_option maxHeartbeats 2000000 in
theorem runA (c : Dev nD) (i : grid0.Coords) (arg2 : Memref sig .tc .vmem S1024x4096 .f32) (harg2 : arg2.IsWhole) (arg3 : Memref sig .tc .vmem S4096x256 .f32) (harg3 : arg3.IsWhole) (arg4 : Memref sig .tc .vmem S512x256 .f32) (harg4 : arg4.IsWhole) (arg5 : Memref sig .tc .vmem S1024x512 .f32) (harg5 : arg5.IsWhole) (arg6 : Memref sig .tc .vmem S1024x4096 .bf16) (harg6 : arg6.IsWhole) (arg7 : Memref sig .tc .vmem S1024x4096 .bf16) (harg7 : arg7.IsWhole) (h1 : cond1 i) (h2 : cond2 i) (h3 : cond3 i) (h4 : ¬ cond4 i)
    (x0 : Vec F S1024x4096 .f32) (x1 : Vec F S4096x256 .f32) (x2 : Vec F S512x256 .f32) (xo : Vec F S1024x512 .f32)
    (xa xb : Vec F S1024x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare xa ∗ owns (c : Thread nD τ) arg7 fullShare xb
        ∗ (iprop(owns (c : Thread nD τ) arg2 fullShare x0 ∗ owns (c : Thread nD τ) arg3 fullShare x1 ∗ owns (c : Thread nD τ) arg4 fullShare x2 ∗ owns (c : Thread nD τ) arg5 fullShare (k0_pay3 (k0_pay2 (k0_pay1 x0) x1) x2) ∗ owns (c : Thread nD τ) arg6 fullShare (k0_pay1 x0) ∗ owns (c : Thread nD τ) arg7 fullShare (putTile arg7 harg7 i h2 xb (k0_pay2 (k0_pay1 x0) x1))) -∗ K ⟨⟩))
      ⊢ wp frame (wpE (defs₀ (F := F)) Variants.none c none) E (cc0__body i arg2 harg2 arg3 harg3 arg4 harg4 arg5 harg5 arg6 harg6 arg7 harg7) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%fa, %hfa, HA⟩, ⟨%fb, %hfb, HB⟩, Hk⟩
  obtain rfl := harg2.eq_unread hf0; obtain rfl := harg3.eq_unread hf1; obtain rfl := harg4.eq_unread hf2
  obtain rfl := harg5.eq_unread hf3; obtain rfl := harg6.eq_unread hfa; obtain rfl := harg7.eq_unread hfb
  sl_exec (disch := first | exact h1 | exact h2 | exact h3 | exact h4)
  sl_step
  sl_unfold_run_names
  have hoff : k0_off1 i = k0_off2 i := rfl
  simp only [ReadBack.readAt_whole_unread (S := S1024x4096) _ ReadBack.zero2, ReadBack.readAt_whole_unread (S := S4096x256) _ ReadBack.zero2,
    ReadBack.readAt_whole_unread (S := S512x256) _ ReadBack.zero2, ReadBack.readAt_whole_unread (S := S1024x512) _ ReadBack.zero2,
    View.readCov_unit_zero (S := S1024x4096) _ ReadBack.zero2, View.readCov_unit_zero (S := S1024x512) _ ReadBack.zero2,
    ReadBack.readCov_unit_same arg7.view (k0_off1_inb i h2) (k0_off2_inb i) hoff]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro; exact ReadBack.read_writes_whole (S := S1024x512) arg5.view _ ReadBack.zero2 _ _
  isplitl [HA]
  · iexists _; isplitr
    swap; · iexact HA
    ipureintro; exact ReadBack.read_writes_whole (S := S1024x4096) arg6.view _ ReadBack.zero2 _ _
  iexists _; isplitr
  swap; · iexact HB
  ipureintro; exact rfl

end Cert.Kernel.Body

end
-- ==== Proof.BitsRunB.lean ====
/-
  The body at a later point of the first row (b = 0, k > 0): the first scratch is only read; tile k of the second receives
  (first scratch) · (w's tile k); that tile times (x's tile)ᵀ is added to the result block.
-/
import proofs.«146342_g75617194213527_cont_sun_c4_20_21_alg».proof.Proof.BitsTiles

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]
local notation "𝕄" => MT nD τ sig Unit (Elt F) ℕ (UR sig nD τ) ℕ

set_option maxHeartbeats 2000000 in
theorem runB (c : Dev nD) (i : grid0.Coords) (arg2 : Memref sig .tc .vmem S1024x4096 .f32) (harg2 : arg2.IsWhole) (arg3 : Memref sig .tc .vmem S4096x256 .f32) (harg3 : arg3.IsWhole) (arg4 : Memref sig .tc .vmem S512x256 .f32) (harg4 : arg4.IsWhole) (arg5 : Memref sig .tc .vmem S1024x512 .f32) (harg5 : arg5.IsWhole) (arg6 : Memref sig .tc .vmem S1024x4096 .bf16) (harg6 : arg6.IsWhole) (arg7 : Memref sig .tc .vmem S1024x4096 .bf16) (harg7 : arg7.IsWhole) (h1 : ¬ cond1 i) (h2 : cond2 i) (h3 : ¬ cond3 i) (h4 : cond4 i)
    (x0 : Vec F S1024x4096 .f32) (x1 : Vec F S4096x256 .f32) (x2 : Vec F S512x256 .f32) (xo : Vec F S1024x512 .f32)
    (xa xb : Vec F S1024x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare xa ∗ owns (c : Thread nD τ) arg7 fullShare xb
        ∗ (iprop(owns (c : Thread nD τ) arg2 fullShare x0 ∗ owns (c : Thread nD τ) arg3 fullShare x1 ∗ owns (c : Thread nD τ) arg4 fullShare x2 ∗ owns (c : Thread nD τ) arg5 fullShare (k0_pay4 (k0_pay2 xa x1) x2 xo) ∗ owns (c : Thread nD τ) arg6 fullShare xa ∗ owns (c : Thread nD τ) arg7 fullShare (putTile arg7 harg7 i h2 xb (k0_pay2 xa x1))) -∗ K ⟨⟩))
      ⊢ wp frame (wpE (defs₀ (F := F)) Variants.none c none) E (cc0__body i arg2 harg2 arg3 harg3 arg4 harg4 arg5 harg5 arg6 harg6 arg7 harg7) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%fa, %hfa, HA⟩, ⟨%fb, %hfb, HB⟩, Hk⟩
  obtain rfl := harg2.eq_unread hf0; obtain rfl := harg3.eq_unread hf1; obtain rfl := harg4.eq_unread hf2
  obtain rfl := harg5.eq_unread hf3; obtain rfl := harg6.eq_unread hfa; obtain rfl := harg7.eq_unread hfb
  sl_exec (disch := first | exact h1 | exact h2 | exact h3 | exact h4)
  sl_step
  sl_unfold_run_names
  have hoff : k0_off1 i = k0_off2 i := rfl
  simp only [ReadBack.readAt_whole_unread (S := S1024x4096) _ ReadBack.zero2, ReadBack.readAt_whole_unread (S := S4096x256) _ ReadBack.zero2,
    ReadBack.readAt_whole_unread (S := S512x256) _ ReadBack.zero2, ReadBack.readAt_whole_unread (S := S1024x512) _ ReadBack.zero2,
    View.readCov_unit_zero (S := S1024x4096) _ ReadBack.zero2, View.readCov_unit_zero (S := S1024x512) _ ReadBack.zero2,
    ReadBack.readCov_unit_same arg7.view (k0_off1_inb i h2) (k0_off2_inb i) hoff]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro; exact ReadBack.read_writes_whole (S := S1024x512) arg5.view _ ReadBack.zero2 _ _
  isplitl [HA]
  · iexists _; isplitr
    swap; · iexact HA
    ipureintro; exact harg6.read_unread _
  iexists _; isplitr
  swap; · iexact HB
  ipureintro; exact rfl

end Cert.Kernel.Body

end
-- ==== Proof.BitsRunC.lean ====
/-
  The body at the first point of a later row (b > 0, k = 0): both scratch buffers are only read; the result block is set to
  (second scratch's tile 0) · (x's tile)ᵀ.
-/
import proofs.«146342_g75617194213527_cont_sun_c4_20_21_alg».proof.Proof.BitsTiles

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]
local notation "𝕄" => MT nD τ sig Unit (Elt F) ℕ (UR sig nD τ) ℕ

set_option maxHeartbeats 2000000 in
theorem runC (c : Dev nD) (i : grid0.Coords) (arg2 : Memref sig .tc .vmem S1024x4096 .f32) (harg2 : arg2.IsWhole) (arg3 : Memref sig .tc .vmem S4096x256 .f32) (harg3 : arg3.IsWhole) (arg4 : Memref sig .tc .vmem S512x256 .f32) (harg4 : arg4.IsWhole) (arg5 : Memref sig .tc .vmem S1024x512 .f32) (harg5 : arg5.IsWhole) (arg6 : Memref sig .tc .vmem S1024x4096 .bf16) (harg6 : arg6.IsWhole) (arg7 : Memref sig .tc .vmem S1024x4096 .bf16) (harg7 : arg7.IsWhole) (h1 : ¬ cond1 i) (h2 : ¬ cond2 i) (h3 : cond3 i) (h4 : ¬ cond4 i)
    (x0 : Vec F S1024x4096 .f32) (x1 : Vec F S4096x256 .f32) (x2 : Vec F S512x256 .f32) (xo : Vec F S1024x512 .f32)
    (xa xb : Vec F S1024x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare xa ∗ owns (c : Thread nD τ) arg7 fullShare xb
        ∗ (iprop(owns (c : Thread nD τ) arg2 fullShare x0 ∗ owns (c : Thread nD τ) arg3 fullShare x1 ∗ owns (c : Thread nD τ) arg4 fullShare x2 ∗ owns (c : Thread nD τ) arg5 fullShare (k0_pay3 (getTile i xb) x2) ∗ owns (c : Thread nD τ) arg6 fullShare xa ∗ owns (c : Thread nD τ) arg7 fullShare xb) -∗ K ⟨⟩))
      ⊢ wp frame (wpE (defs₀ (F := F)) Variants.none c none) E (cc0__body i arg2 harg2 arg3 harg3 arg4 harg4 arg5 harg5 arg6 harg6 arg7 harg7) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%fa, %hfa, HA⟩, ⟨%fb, %hfb, HB⟩, Hk⟩
  obtain rfl := harg2.eq_unread hf0; obtain rfl := harg3.eq_unread hf1; obtain rfl := harg4.eq_unread hf2
  obtain rfl := harg5.eq_unread hf3; obtain rfl := harg6.eq_unread hfa; obtain rfl := harg7.eq_unread hfb
  sl_exec (disch := first | exact h1 | exact h2 | exact h3 | exact h4)
  sl_step
  sl_unfold_run_names
  have e7 : View.readAt (Elt F) arg7.view (Rect.unit (s := S1024x4096) (k0_off2 i) S1024x256.size (k0_off2_inb i)).toLoadRect (harg7.unread xb)
      = getTile i xb := by
    rw [View.readAt_eq_ld, harg7.read_unread]; rfl
  simp only [e7, ReadBack.readAt_whole_unread (S := S1024x4096) _ ReadBack.zero2, ReadBack.readAt_whole_unread (S := S4096x256) _ ReadBack.zero2,
    ReadBack.readAt_whole_unread (S := S512x256) _ ReadBack.zero2, ReadBack.readAt_whole_unread (S := S1024x512) _ ReadBack.zero2]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro; exact ReadBack.read_writes_whole (S := S1024x512) arg5.view _ ReadBack.zero2 _ _
  isplitl [HA]
  · iexists _; isplitr
    swap; · iexact HA
    ipureintro; exact harg6.read_unread _
  iexists _; isplitr
  swap; · iexact HB
  ipureintro; exact harg7.read_unread _

end Cert.Kernel.Body

end
-- ==== Proof.BitsRunD.lean ====
/-
  The body at a later point of a later row (b > 0, k > 0): both scratch buffers are only read; (second scratch's tile k) ·
  (x's tile)ᵀ is added to the result block.
-/
import proofs.«146342_g75617194213527_cont_sun_c4_20_21_alg».proof.Proof.BitsTiles

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]
local notation "𝕄" => MT nD τ sig Unit (Elt F) ℕ (UR sig nD τ) ℕ

set_option maxHeartbeats 2000000 in
theorem runD (c : Dev nD) (i : grid0.Coords) (arg2 : Memref sig .tc .vmem S1024x4096 .f32) (harg2 : arg2.IsWhole) (arg3 : Memref sig .tc .vmem S4096x256 .f32) (harg3 : arg3.IsWhole) (arg4 : Memref sig .tc .vmem S512x256 .f32) (harg4 : arg4.IsWhole) (arg5 : Memref sig .tc .vmem S1024x512 .f32) (harg5 : arg5.IsWhole) (arg6 : Memref sig .tc .vmem S1024x4096 .bf16) (harg6 : arg6.IsWhole) (arg7 : Memref sig .tc .vmem S1024x4096 .bf16) (harg7 : arg7.IsWhole) (h1 : ¬ cond1 i) (h2 : ¬ cond2 i) (h3 : ¬ cond3 i) (h4 : cond4 i)
    (x0 : Vec F S1024x4096 .f32) (x1 : Vec F S4096x256 .f32) (x2 : Vec F S512x256 .f32) (xo : Vec F S1024x512 .f32)
    (xa xb : Vec F S1024x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare xa ∗ owns (c : Thread nD τ) arg7 fullShare xb
        ∗ (iprop(owns (c : Thread nD τ) arg2 fullShare x0 ∗ owns (c : Thread nD τ) arg3 fullShare x1 ∗ owns (c : Thread nD τ) arg4 fullShare x2 ∗ owns (c : Thread nD τ) arg5 fullShare (k0_pay4 (getTile i xb) x2 xo) ∗ owns (c : Thread nD τ) arg6 fullShare xa ∗ owns (c : Thread nD τ) arg7 fullShare xb) -∗ K ⟨⟩))
      ⊢ wp frame (wpE (defs₀ (F := F)) Variants.none c none) E (cc0__body i arg2 harg2 arg3 harg3 arg4 harg4 arg5 harg5 arg6 harg6 arg7 harg7) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%fa, %hfa, HA⟩, ⟨%fb, %hfb, HB⟩, Hk⟩
  obtain rfl := harg2.eq_unread hf0; obtain rfl := harg3.eq_unread hf1; obtain rfl := harg4.eq_unread hf2
  obtain rfl := harg5.eq_unread hf3; obtain rfl := harg6.eq_unread hfa; obtain rfl := harg7.eq_unread hfb
  sl_exec (disch := first | exact h1 | exact h2 | exact h3 | exact h4)
  sl_step
  sl_unfold_run_names
  have e7 : View.readAt (Elt F) arg7.view (Rect.unit (s := S1024x4096) (k0_off2 i) S1024x256.size (k0_off2_inb i)).toLoadRect (harg7.unread xb)
      = getTile i xb := by
    rw [View.readAt_eq_ld, harg7.read_unread]; rfl
  simp only [e7, ReadBack.readAt_whole_unread (S := S1024x4096) _ ReadBack.zero2, ReadBack.readAt_whole_unread (S := S4096x256) _ ReadBack.zero2,
    ReadBack.readAt_whole_unread (S := S512x256) _ ReadBack.zero2, ReadBack.readAt_whole_unread (S := S1024x512) _ ReadBack.zero2]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro; exact ReadBack.read_writes_whole (S := S1024x512) arg5.view _ ReadBack.zero2 _ _
  isplitl [HA]
  · iexists _; isplitr
    swap; · iexact HA
    ipureintro; exact harg6.read_unread _
  iexists _; isplitr
  swap; · iexact HB
  ipureintro; exact harg7.read_unread _

end Cert.Kernel.Body

end
-- ==== Proof.BitsFrame.lean ====
/-
  The run of the whole kernel, point by point, with what every buffer holds after each point named.

  Write W = wout narrowed, T_k = W · (w's tile k) narrowed (a [1024, 256] tile), and for point t = 16b + k let x_t be x's
  block (b, k). Then after point t
    * the first scratch holds W;
    * tiles 0 … min(t, 15) of the second scratch hold T_0 … T_min(t,15) (its other tiles hold whatever the buffer was
      allocated with, which is why this is stated as a property of the contents and not as the contents);
    * the result's staging buffer holds out_t, where out_t = T_k · x_tᵀ when k = 0 and out_(t-1) + T_k · x_tᵀ otherwise.
  The four cases of the body (first point; rest of the first row; first point of a later row; the rest) each preserve
  this, which is the body obligation; the launch theorem then gives the run, and the run gives the frame.
-/
import proofs.«146342_g75617194213527_cont_sun_c4_20_21_alg».proof.Proof.BitsRunA
import proofs.«146342_g75617194213527_cont_sun_c4_20_21_alg».proof.Proof.BitsRunB
import proofs.«146342_g75617194213527_cont_sun_c4_20_21_alg».proof.Proof.BitsRunC
import proofs.«146342_g75617194213527_cont_sun_c4_20_21_alg».proof.Proof.BitsRunD

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N128 : cfg0.N = 128 := N_0

/-- The first point. -/
abbrev t0 : Fin cfg0.N := ⟨0, Nat.lt_of_lt_of_eq (by omega : 0 < 128) N128.symm⟩
/-- The point of the first row with point t's second coordinate k: the point at which tile k was computed. -/
def kpt (t : Fin cfg0.N) : Fin cfg0.N := ⟨t.val % 16, Nat.lt_of_lt_of_eq (by omega : t.val % 16 < 128) N128.symm⟩

theorem kpt_val (t : Fin cfg0.N) : (kpt t).val = t.val % 16 := rfl
theorem kpt_of_lt (t : Fin cfg0.N) (h : t.val < 16) : kpt t = t := Fin.ext (by rw [kpt_val]; omega)

/-- W: wout, narrowed — what the first scratch holds from the first point on. -/
def Wb (c : Dev nD) : Vec F S1024x4096 .bf16 := k0_pay1 (iblk m c 0 t0)
/-- T_k for k the second coordinate of t' (t' a point of the first row): W · (w's block at t'), narrowed. -/
def Ttile (c : Dev nD) (t' : Fin cfg0.N) : Vec F S1024x256 .bf16 := k0_pay2 (Wb m c) (iblk m c 1 t')

/-- out_t: what the result's staging buffer holds after point t. -/
def outAt (c : Dev nD) : (n : ℕ) → n < cfg0.N → Vec F S1024x512 .f32
  | 0, hn => k0_pay3 (Ttile m c (kpt ⟨0, hn⟩)) (iblk m c 2 ⟨0, hn⟩)
  | n + 1, hn =>
    if (n + 1) % 16 = 0 then k0_pay3 (Ttile m c (kpt ⟨n + 1, hn⟩)) (iblk m c 2 ⟨n + 1, hn⟩)
    else k0_pay4 (Ttile m c (kpt ⟨n + 1, hn⟩)) (iblk m c 2 ⟨n + 1, hn⟩) (outAt c n (Nat.lt_of_succ_lt hn))

/-- At k = 0 the block is set. -/
theorem outAt_set (c : Dev nD) (t : Fin cfg0.N) (h : t.val % 16 = 0) :
    outAt m c t.val t.isLt = k0_pay3 (Ttile m c (kpt t)) (iblk m c 2 t) := by
  obtain ⟨n, hn⟩ := t
  cases n with
  | zero => rfl
  | succ n => exact if_pos h

/-- At k > 0 it is added to. -/
theorem outAt_add (c : Dev nD) (t : Fin cfg0.N) (h : ¬ t.val % 16 = 0) :
    outAt m c t.val t.isLt
      = k0_pay4 (Ttile m c (kpt t)) (iblk m c 2 t) (outAt m c (t.val - 1) (Nat.lt_of_le_of_lt (Nat.sub_le _ _) t.isLt)) := by
  obtain ⟨n, hn⟩ := t
  cases n with
  | zero => exact absurd (Nat.zero_mod _) h
  | succ n => exact if_neg h

/-- Tiles 0 … min(n, 15) of contents X of the second scratch are T_0 … T_min(n,15). -/
def TilesOk (c : Dev nD) (n : ℕ) (X : Vec F S1024x4096 .bf16) : Prop :=
  ∀ t' : Fin cfg0.N, t'.val ≤ n → t'.val < 16 → getTile (grid0.coords t') X = Ttile m c t'

/-- The region's invariant before position n: before the first point both scratch buffers hold anything; afterwards the
    first holds W and the second has its first tiles right. The generator register is at some state throughout. -/
def PhiS (c : Dev nD) : (n : ℕ) → n ≤ cfg0.N → sProp 𝕄
  | 0, _ => Pipeline.ΦA spec0 c
  | n + 1, _ => iprop(iprop(owns (c : Thread nD τ) scA fullShare (Wb m c) ∗ (∃ X, ⌜TilesOk m c n X⌝ ∗ owns (c : Thread nD τ) scB fullShare X)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scA fullShare (Wb m c) ∗ (∃ X, ⌜TilesOk m c n X⌝ ∗ owns (c : Thread nD τ) scB fullShare X)) ∗ (∃ r, prngReg c r)) := rfl

theorem PhiS_pos (c : Dev nD) (n : ℕ) (h : n ≤ cfg0.N) (hz : n ≠ 0) :
    PhiS m c n h = iprop(iprop(owns (c : Thread nD τ) scA fullShare (Wb m c) ∗ (∃ X, ⌜TilesOk m c (n - 1) X⌝ ∗ owns (c : Thread nD τ) scB fullShare X)) ∗ (∃ r, prngReg c r)) := by
  cases n with
  | zero => exact absurd rfl hz
  | succ n => rfl

/-! ## The proof data -/

/-- The arrays as the region finds them; after the body each input's buffer at its block and the result's at out_t; the
    invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outAt m c t.val t.isLt := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- At k = 0 the result's staging buffer is fresh (the first point, or the point after a write-back): it holds anything. -/
theorem before3_fresh (c : Dev nD) (t : Fin cfg0.N) (h : t.val % 16 = 0) (d) : (dats m 0 c).before 3 t d = d :=
  Dat.before_out_reset (dats m 0 c) 3 rfl t
    (if hz : t.val = 0 then .inl hz else .inr ⟨hz, flushBefore t h hz⟩) d

/-- At k > 0 it holds what the body left at the point before: no write-back in between, the window live and uncut. -/
theorem before3_kept (c : Dev nD) (t : Fin cfg0.N) (h : ¬ t.val % 16 = 0) (d) :
    (dats m 0 c).before 3 t d = outAt m c (t.val - 1) (Nat.lt_of_le_of_lt (Nat.sub_le _ _) t.isLt) := by
  rw [Dat.before_out_kept (dats m 0 c) 3 rfl t (fun hz => h (by rw [hz])) (noFlushBefore t h) live3 (fun _ _ => rfl)]
  dsimp only [dats]

/-! ## The body obligation -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves_eq (c : Dev nD) (t : Fin cfg0.N) (w : Fin cfg0.W) :
    (dats m 0 c).leavesExact w t = owns (c : Thread nD τ) ((cfg0.win w).stage (cfg0.slots t w)) fullShare ((dats m 0 c).after w t) := by
  unfold Dat.leavesExact; rw [live0 w t]

/-- Replacing tile k at a point of the first row keeps the earlier tiles and makes tile k right. -/
theorem tilesOk_put (c : Dev nD) (t : Fin cfg0.N) (ht : t.val < 16) (h2 : cond2 (grid0.coords t)) (X : Vec F S1024x4096 .bf16)
    (hX : ∀ t' : Fin cfg0.N, t'.val < t.val → getTile (grid0.coords t') X = Ttile m c t') :
    TilesOk m c t.val (putTile scB hscB (grid0.coords t) h2 X (Ttile m c t)) := by
  intro t' hle hlt
  by_cases he : t'.val = t.val
  · obtain rfl : t' = t := Fin.ext he
    exact getTile_putTile_same scB hscB _ h2 X _
  · rw [getTile_putTile_other scB hscB (grid0.coords t) (grid0.coords t') h2 X _ (by
      rw [off1_eq t, off2_eq t']; omega)]
    exact hX t' (by omega)

set_option maxHeartbeats 4000000 in
/-- The body at any point: the inputs' buffers hold their blocks; the closed forms of the conditions say which of the four
    cases the point is in; the invariant hands the body the two scratch buffers (at anything before the first point, at W
    and at contents with the first tiles right afterwards) and takes them back with one more tile right. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, leaves_eq, after0, after1, after2, after3]
  rw [show (dats m 0 c).owesAt () t.succ = (dats m 0 c).owesAt () t.castSucc from rfl]
  rw [show (dats m 0 c).Φ t.succ = PhiS m c (t.val + 1) t.isLt from rfl, PhiS_succ, PhiS_castSucc m c t]
  have hN : t.val < 128 := lt_of_lt_of_eq t.isLt N128
  by_cases hz : t.val = 0
  · -- the first point
    have hk : t.val % 16 = 0 := by rw [hz]
    have h1 := (hcond1 t).mpr hz
    have h2 := (hcond2 t).mpr (by omega)
    have h3 := (hcond3 t).mpr hk
    have h4 : ¬ cond4 (grid0.coords t) := fun h => (hcond4 t).mp h hk
    obtain rfl : t = t0 := Fin.ext hz
    simp only [before3_fresh m c t0 hk]
    rw [PhiS_zero m c _ _ rfl, PhiA_eq, outAt_set m c t0 hk, kpt_of_lt t0 (by omega)]
    iintro ⟨⟨⟨⟨%da, HA⟩, ⟨%db, HB⟩⟩, Hg⟩, Ho, ⟨%d0, H0⟩, ⟨%d1, H1⟩, ⟨%d2, H2⟩, ⟨%d3, H3⟩⟩
    iapply (runA c (grid0.coords t0) _ _ _ _ _ _ _ _ scA hscA scB hscB h1 h2 h3 h4 (iblk m c 0 t0) (iblk m c 1 t0) (iblk m c 2 t0) d3 da db Set.univ _)
    isplitl [H0]; · iexact H0
    isplitl [H1]; · iexact H1
    isplitl [H2]; · iexact H2
    isplitl [H3]; · iexact H3
    isplitl [HA]; · iexact HA
    isplitl [HB]; · iexact HB
    iintro ⟨H0, H1, H2, H3, HA, HB⟩
    isplitl [HA HB Hg]
    · isplitl [HA HB]
      · isplitl [HA]; · iexact HA
        iexists _; isplitr
        · ipureintro
          exact tilesOk_put m c t0 (by omega) h2 db (fun t' h => absurd h (Nat.not_lt_zero _))
        iexact HB
      iexact Hg
    isplitl [Ho]; · iexact Ho
    isplitl [H0]; · iexact H0
    isplitl [H1]; · iexact H1
    isplitl [H2]; · iexact H2
    iexact H3
  · rw [PhiS_pos m c _ _ hz]
    by_cases hb : t.val < 16
    · -- the rest of the first row
      have hk : ¬ t.val % 16 = 0 := by omega
      have h1 : ¬ cond1 (grid0.coords t) := fun h => hz ((hcond1 t).mp h)
      have h2 := (hcond2 t).mpr hb
      have h3 : ¬ cond3 (grid0.coords t) := fun h => hk ((hcond3 t).mp h)
      have h4 := (hcond4 t).mpr hk
      simp only [before3_kept m c t hk]
      rw [outAt_add m c t hk, kpt_of_lt t hb]
      iintro ⟨⟨⟨HA, ⟨%X, %hX, HB⟩⟩, Hg⟩, Ho, ⟨%d0, H0⟩, ⟨%d1, H1⟩, ⟨%d2, H2⟩, ⟨%d3, H3⟩⟩
      iapply (runB c (grid0.coords t) _ _ _ _ _ _ _ _ scA hscA scB hscB h1 h2 h3 h4 (iblk m c 0 t) (iblk m c 1 t) (iblk m c 2 t) _ (Wb m c) X Set.univ _)
      isplitl [H0]; · iexact H0
      isplitl [H1]; · iexact H1
      isplitl [H2]; · iexact H2
      isplitl [H3]; · iexact H3
      isplitl [HA]; · iexact HA
      isplitl [HB]; · iexact HB
      iintro ⟨H0, H1, H2, H3, HA, HB⟩
      isplitl [HA HB Hg]
      · isplitl [HA HB]
        · isplitl [HA]; · iexact HA
          iexists _; isplitr
          · ipureintro
            exact tilesOk_put m c t hb h2 X (fun t' h => hX t' (by omega) (by omega))
          iexact HB
        iexact Hg
      isplitl [Ho]; · iexact Ho
      isplitl [H0]; · iexact H0
      isplitl [H1]; · iexact H1
      isplitl [H2]; · iexact H2
      iexact H3
    · have h1 : ¬ cond1 (grid0.coords t) := fun h => hz ((hcond1 t).mp h)
      have h2 : ¬ cond2 (grid0.coords t) := fun h => hb ((hcond2 t).mp h)
      by_cases hk : t.val % 16 = 0
      · -- the first point of a later row
        have h3 := (hcond3 t).mpr hk
        have h4 : ¬ cond4 (grid0.coords t) := fun h => (hcond4 t).mp h hk
        simp only [before3_fresh m c t hk]
        rw [outAt_set m c t hk]
        iintro ⟨⟨⟨HA, ⟨%X, %hX, HB⟩⟩, Hg⟩, Ho, ⟨%d0, H0⟩, ⟨%d1, H1⟩, ⟨%d2, H2⟩, ⟨%d3, H3⟩⟩
        have hT : getTile (grid0.coords t) X = Ttile m c (kpt t) :=
          (getTile_congr t (kpt t) (by rw [kpt_val]; omega) X).trans (hX (kpt t) (by rw [kpt_val]; omega) (by rw [kpt_val]; omega))
        rw [← hT]
        iapply (runC c (grid0.coords t) _ _ _ _ _ _ _ _ scA hscA scB hscB h1 h2 h3 h4 (iblk m c 0 t) (iblk m c 1 t) (iblk m c 2 t) d3 (Wb m c) X Set.univ _)
        isplitl [H0]; · iexact H0
        isplitl [H1]; · iexact H1
        isplitl [H2]; · iexact H2
        isplitl [H3]; · iexact H3
        isplitl [HA]; · iexact HA
        isplitl [HB]; · iexact HB
        iintro ⟨H0, H1, H2, H3, HA, HB⟩
        isplitl [HA HB Hg]
        · isplitl [HA HB]
          · isplitl [HA]; · iexact HA
            iexists _; isplitr
            · ipureintro
              exact fun t' hle hlt => hX t' (by omega) hlt
            iexact HB
          iexact Hg
        isplitl [Ho]; · iexact Ho
        isplitl [H0]; · iexact H0
        isplitl [H1]; · iexact H1
        isplitl [H2]; · iexact H2
        iexact H3
      · -- the rest
        have h3 : ¬ cond3 (grid0.coords t) := fun h => hk ((hcond3 t).mp h)
        have h4 := (hcond4 t).mpr hk
        simp only [before3_kept m c t hk]
        rw [outAt_add m c t hk]
        iintro ⟨⟨⟨HA, ⟨%X, %hX, HB⟩⟩, Hg⟩, Ho, ⟨%d0, H0⟩, ⟨%d1, H1⟩, ⟨%d2, H2⟩, ⟨%d3, H3⟩⟩
        have hT : getTile (grid0.coords t) X = Ttile m c (kpt t) :=
          (getTile_congr t (kpt t) (by rw [kpt_val]; omega) X).trans (hX (kpt t) (by rw [kpt_val]; omega) (by rw [kpt_val]; omega))
        rw [← hT]
        iapply (runD c (grid0.coords t) _ _ _ _ _ _ _ _ scA hscA scB hscB h1 h2 h3 h4 (iblk m c 0 t) (iblk m c 1 t) (iblk m c 2 t) _ (Wb m c) X Set.univ _)
        isplitl [H0]; · iexact H0
        isplitl [H1]; · iexact H1
        isplitl [H2]; · iexact H2
        isplitl [H3]; · iexact H3
        isplitl [HA]; · iexact HA
        isplitl [HB]; · iexact HB
        iintro ⟨H0, H1, H2, H3, HA, HB⟩
        isplitl [HA HB Hg]
        · isplitl [HA HB]
          · isplitl [HA]; · iexact HA
            iexists _; isplitr
            · ipureintro
              exact fun t' hle hlt => hX t' (by omega) hlt
            iexact HB
          iexact Hg
        isplitl [Ho]; · iexact Ho
        isplitl [H0]; · iexact H0
        isplitl [H1]; · iexact H1
        isplitl [H2]; · iexact H2
        iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch buffers back, their contents forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last, N128]; omega), PhiA_eq]
  iintro ⟨⟨HA, ⟨%X, -, HB⟩⟩, Hg⟩
  isplitl [HA HB]
  · isplitl [HA]; · iexists _; iexact HA
    iexists _; iexact HB
  iexact Hg

/-! ## The run and the frame -/

set_option backward.isDefEq.respectTransparency.types false in
/-- Every weakly fair execution of the program terminates, faulting nowhere, with the result array at what the library
    computes from the proof data and every other array as launched. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end and its three argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.IdealCases.lean ====
/-
  The grid of this kernel is 8 × 16: point t = 16·b + k, b the batch tile (512 rows of x, 512 columns of the
  result) and k the contraction tile (256 columns of w and of x). The body has four conditionals:
    (1) b = 0 ∧ k = 0 : the first scratch receives wout, narrowed;
    (2) b = 0         : columns [256k, 256k + 256) of the second scratch receive (first scratch) · (w's tile k);
    (3) k = 0         : the result block is SET to (second scratch's tile k) · (x's tile)ᵀ;
    (4) k > 0         : that product is ADDED to the result block.
  Here each condition is decided over the 128 points in closed form, the result window is shown never idle, and the
  memrefs the body is called with are named.
-/
import proofs.«146342_g75617194213527_cont_sun_c4_20_21_alg».proof.Proof.Gen.KernelIdeal.Frame
import proofs.«146342_g75617194213527_cont_sun_c4_20_21_alg».proof.Proof.Gen.KernelIdeal.Skeleton
import Idealize.ShloMosaic.Lib.Pipeline.FrameBody
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-- Condition (1), b = 0 ∧ k = 0, as the body computes it from the grid coordinates. -/
abbrev cond1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- Condition (2), b = 0. -/
abbrev cond2 (i : grid0.Coords) : Prop := k0_cond2 i = 1#1
/-- Condition (3), k = 0. -/
abbrev cond3 (i : grid0.Coords) : Prop := k0_cond3 i = 1#1
/-- Condition (4), k > 0. -/
abbrev cond4 (i : grid0.Coords) : Prop := k0_cond4 i = 1#1

/-- b = 0 ∧ k = 0 exactly at the first point. -/
theorem hcond1 : ∀ t : Fin cfg0.N, cond1 (grid0.coords t) ↔ t.val = 0 :=
  (by decide +kernel : ∀ t : Fin grid0.N, cond1 (grid0.coords t) ↔ t.val = 0)
/-- b = 0 exactly at the first sixteen points. -/
theorem hcond2 : ∀ t : Fin cfg0.N, cond2 (grid0.coords t) ↔ t.val < 16 :=
  (by decide +kernel : ∀ t : Fin grid0.N, cond2 (grid0.coords t) ↔ t.val < 16)
/-- k = 0 exactly at the multiples of sixteen. -/
theorem hcond3 : ∀ t : Fin cfg0.N, cond3 (grid0.coords t) ↔ t.val % 16 = 0 :=
  (by decide +kernel : ∀ t : Fin grid0.N, cond3 (grid0.coords t) ↔ t.val % 16 = 0)
/-- k > 0 exactly elsewhere. -/
theorem hcond4 : ∀ t : Fin cfg0.N, cond4 (grid0.coords t) ↔ ¬ t.val % 16 = 0 :=
  (by decide +kernel : ∀ t : Fin grid0.N, cond4 (grid0.coords t) ↔ ¬ t.val % 16 = 0)

/-- No window is idle at any point: the result block is stored at every point (set when k = 0, added to otherwise). -/
theorem live0 : ∀ (w : Fin cfg0.W) (t : Fin cfg0.N), cfg0.idle w (grid0.coords t) = false :=
  (by decide +kernel : ∀ (w : Fin 4) (t : Fin grid0.N), idle0 w (grid0.coords t) = false)

/-- The result window is written back at point t exactly when k = 15; so not at t - 1 unless t is a multiple of 16. -/
theorem noFlushBefore (t : Fin cfg0.N) (h : ¬ t.val % 16 = 0) :
    (cfg0.win 3).flush ⟨t.val - 1, Nat.lt_of_le_of_lt (Nat.sub_le _ _) t.isLt⟩ = false := by
  have := (flush0_3 ⟨t.val - 1, Nat.lt_of_le_of_lt (Nat.sub_le _ _) t.isLt⟩).not
  rw [Bool.not_eq_true] at this
  exact this.mpr (by show ¬ (t.val - 1) % 16 = 15; omega)

/-- And it IS written back at t - 1 when t is a positive multiple of 16. -/
theorem flushBefore (t : Fin cfg0.N) (h : t.val % 16 = 0) (hz : t.val ≠ 0) :
    (cfg0.win 3).flush ⟨t.val - 1, Nat.lt_of_le_of_lt (Nat.sub_le _ _) t.isLt⟩ = true :=
  (flush0_3 ⟨t.val - 1, Nat.lt_of_le_of_lt (Nat.sub_le _ _) t.isLt⟩).mpr (by show (t.val - 1) % 16 = 15; omega)

/-- Each window's current staging memref at point t, as the pipeline passes it, and its wholeness. -/
abbrev ms0 (t : Fin cfg0.N) : Memref sig .tc .vmem S1024x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x512 .f32 := win0_3.stage (cfg0.slots t 3)
abbrev hs3 (t : Fin cfg0.N) : (ms3 t).IsWhole := hstage0_3 ((cfg0.slots t 3).cast nbuf0_3)
/-- The two scratch operands: whole buffers of the kernel's own, kept from point to point. -/
abbrev scA : Memref sig .tc .vmem S1024x4096 .bf16 := Memref.whole cc0_scratch0
abbrev scB : Memref sig .tc .vmem S1024x4096 .bf16 := Memref.whole cc0_scratch1
abbrev hscA : (scA).IsWhole := Memref.isWhole_whole _
abbrev hscB : (scB).IsWhole := Memref.isWhole_whole _

/-- Between points the region holds, besides the windows, exactly the two scratch buffers at some contents and the
    generator register at some state. -/
theorem PhiA_eq (c : Dev nD) :
    (Pipeline.ΦA spec0 c : sProp 𝕄)
      = iprop(iprop((∃ d, owns (c : Thread nD τ) scA fullShare d) ∗ (∃ d, owns (c : Thread nD τ) scB fullShare d)) ∗ (∃ r, prngReg c r)) := by
  unfold Pipeline.ΦA; rw [scopedRest0_eq]; simp only [scA, scB, owns_whole]; try rfl

end Cert.KernelIdeal.Body

end
-- ==== Proof.IdealTiles.lean ====
/-
  The second scratch, a [1024, 4096] buffer, is only ever read and written one TILE at a time: tile k is its columns
  [256k, 256k + 256), k the point's second coordinate. Here: a tile of given contents, the contents with one tile
  replaced, and the two laws that relate them — the replaced tile reads the new value, every other tile reads what it
  did. The offsets the body computes (256 · k, as a 32-bit product) are given in closed form over the grid.
-/
import proofs.«146342_g75617194213527_cont_sun_c4_20_21_alg».proof.Proof.IdealCases
import proofs.«146342_g75617194213527_cont_sun_c4_20_21_alg».proof.Proof.LibReadBack

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

/-- Tile k (k the point's second coordinate) of contents X of the second scratch: its columns [256k, 256k + 256). -/
def getTile (i : grid0.Coords) (X : Vec F S1024x4096 .bf16) : Vec F S1024x256 .bf16 :=
  View.ld X (Rect.unit (s := S1024x4096) (k0_off2 i) S1024x256.size (k0_off2_inb i))

/-- Contents X of the second scratch with tile k replaced by T: what one store of T through the tile's rectangle
    leaves, read back. -/
def putTile (arg7 : Memref sig .tc .vmem S1024x4096 .bf16) (harg7 : arg7.IsWhole) (i : grid0.Coords) (h2 : cond2 i)
    (X : Vec F S1024x4096 .bf16) (T : Vec F S1024x256 .bf16) : Vec F S1024x4096 .bf16 :=
  arg7.view.read (Elt F) (arg7.view.writes (Elt F) (harg7.unread X)
    [(⟨Rect.unit (s := S1024x4096) (k0_off1 i) S1024x256.size (k0_off1_inb i h2), T⟩ : View.Piece (Elt F) S1024x4096 .bf16)])

/-- The replaced tile reads the new value. -/
theorem getTile_putTile_same (arg7 : Memref sig .tc .vmem S1024x4096 .bf16) (harg7 : arg7.IsWhole) (i : grid0.Coords) (h2 : cond2 i)
    (X : Vec F S1024x4096 .bf16) (T : Vec F S1024x256 .bf16) : getTile i (putTile arg7 harg7 i h2 X T) = T := by
  unfold getTile putTile
  exact ReadBack.ld_read_writes_same arg7.view _ (k0_off1_inb i h2) (k0_off2_inb i) rfl T

/-- A tile whose columns are clear of the replaced one's reads what it did. -/
theorem getTile_putTile_other (arg7 : Memref sig .tc .vmem S1024x4096 .bf16) (harg7 : arg7.IsWhole) (i i' : grid0.Coords) (h2 : cond2 i)
    (X : Vec F S1024x4096 .bf16) (T : Vec F S1024x256 .bf16)
    (h : k0_off2 i' 1 + 256 ≤ k0_off1 i 1 ∨ k0_off1 i 1 + 256 ≤ k0_off2 i' 1) :
    getTile i' (putTile arg7 harg7 i h2 X T) = getTile i' X := by
  unfold getTile putTile
  rw [ReadBack.ld_read_writes_other arg7.view _ (k0_off1_inb i h2) (k0_off2_inb i') T 1 h, harg7.read_unread]

/-- The column offset of the tile stored at point t: 256 · k. -/
theorem off1_eq : ∀ t : Fin cfg0.N, k0_off1 (grid0.coords t) 1 = 256 * (t.val % 16) :=
  (by decide +kernel : ∀ t : Fin grid0.N, k0_off1 (grid0.coords t) 1 = 256 * (t.val % 16))
/-- The column offset of the tile loaded at point t: 256 · k. -/
theorem off2_eq : ∀ t : Fin cfg0.N, k0_off2 (grid0.coords t) 1 = 256 * (t.val % 16) :=
  (by decide +kernel : ∀ t : Fin grid0.N, k0_off2 (grid0.coords t) 1 = 256 * (t.val % 16))
/-- Two points with the same k load the same tile: the offsets, as vectors, agree. -/
theorem off2_congr : ∀ t t' : Fin cfg0.N, t.val % 16 = t'.val % 16 → k0_off2 (grid0.coords t) = k0_off2 (grid0.coords t') :=
  (by decide +kernel : ∀ t t' : Fin grid0.N, t.val % 16 = t'.val % 16 → k0_off2 (grid0.coords t) = k0_off2 (grid0.coords t'))

/-- So they read the same tile of any contents. -/
theorem getTile_congr (t t' : Fin cfg0.N) (h : t.val % 16 = t'.val % 16) (X : Vec F S1024x4096 .bf16) :
    getTile (grid0.coords t) X = getTile (grid0.coords t') X := by
  unfold getTile
  exact ReadBack.ld_congr_off _ _ (off2_congr t t' h) X

/-- The result window is stored at every point — set when k = 0, added to when k > 0 —, so it is idle at no coordinates. -/
theorem live3 (i : grid0.Coords) : cfg0.idle 3 i = false :=
  (by decide +kernel : ∀ k : Fin 16,
      (!(Scalar.cmpi .ne (Scalar.extui (Scalar.cmpi .eq (BitVec.ofNat 32 k.val) 0#32)) 0#32 == 1#1)
        && !(Scalar.cmpi .ne (Scalar.extui (Scalar.cmpi .sgt (BitVec.ofNat 32 k.val) 0#32)) 0#32 == 1#1)) = false) (i 1)

end Cert.KernelIdeal.Body

end
-- ==== Proof.IdealRunA.lean ====
/-
  The body at the first point (b = 0, k = 0): the first scratch receives wout narrowed; tile 0 of the second receives
  (that) · (w's tile 0); the result block is set to (that tile) · (x's tile)ᵀ. Each buffer's contents afterwards are stated
  outright, as the body's payloads of the contents before.
-/
import proofs.«146342_g75617194213527_cont_sun_c4_20_21_alg».proof.Proof.IdealTiles

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]
local notation "𝕄" => MT nD τ sig Unit (Elt F) ℕ (UR sig nD τ) ℕ

set_option maxHeartbeats 2000000 in
theorem runA (c : Dev nD) (i : grid0.Coords) (arg2 : Memref sig .tc .vmem S1024x4096 .f32) (harg2 : arg2.IsWhole) (arg3 : Memref sig .tc .vmem S4096x256 .f32) (harg3 : arg3.IsWhole) (arg4 : Memref sig .tc .vmem S512x256 .f32) (harg4 : arg4.IsWhole) (arg5 : Memref sig .tc .vmem S1024x512 .f32) (harg5 : arg5.IsWhole) (arg6 : Memref sig .tc .vmem S1024x4096 .bf16) (harg6 : arg6.IsWhole) (arg7 : Memref sig .tc .vmem S1024x4096 .bf16) (harg7 : arg7.IsWhole) (h1 : cond1 i) (h2 : cond2 i) (h3 : cond3 i) (h4 : ¬ cond4 i)
    (x0 : Vec F S1024x4096 .f32) (x1 : Vec F S4096x256 .f32) (x2 : Vec F S512x256 .f32) (xo : Vec F S1024x512 .f32)
    (xa xb : Vec F S1024x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare xa ∗ owns (c : Thread nD τ) arg7 fullShare xb
        ∗ (iprop(owns (c : Thread nD τ) arg2 fullShare x0 ∗ owns (c : Thread nD τ) arg3 fullShare x1 ∗ owns (c : Thread nD τ) arg4 fullShare x2 ∗ owns (c : Thread nD τ) arg5 fullShare (k0_pay3 (k0_pay2 (k0_pay1 x0) x1) x2) ∗ owns (c : Thread nD τ) arg6 fullShare (k0_pay1 x0) ∗ owns (c : Thread nD τ) arg7 fullShare (putTile arg7 harg7 i h2 xb (k0_pay2 (k0_pay1 x0) x1))) -∗ K ⟨⟩))
      ⊢ wp frame (wpE (defs₀ (F := F)) Variants.none c none) E (cc0__body i arg2 harg2 arg3 harg3 arg4 harg4 arg5 harg5 arg6 harg6 arg7 harg7) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%fa, %hfa, HA⟩, ⟨%fb, %hfb, HB⟩, Hk⟩
  obtain rfl := harg2.eq_unread hf0; obtain rfl := harg3.eq_unread hf1; obtain rfl := harg4.eq_unread hf2
  obtain rfl := harg5.eq_unread hf3; obtain rfl := harg6.eq_unread hfa; obtain rfl := harg7.eq_unread hfb
  sl_exec (disch := first | exact h1 | exact h2 | exact h3 | exact h4)
  sl_step
  sl_unfold_run_names
  have hoff : k0_off1 i = k0_off2 i := rfl
  simp only [ReadBack.readAt_whole_unread (S := S1024x4096) _ ReadBack.zero2, ReadBack.readAt_whole_unread (S := S4096x256) _ ReadBack.zero2,
    ReadBack.readAt_whole_unread (S := S512x256) _ ReadBack.zero2, ReadBack.readAt_whole_unread (S := S1024x512) _ ReadBack.zero2,
    View.readCov_unit_zero (S := S1024x4096) _ ReadBack.zero2, View.readCov_unit_zero (S := S1024x512) _ ReadBack.zero2,
    ReadBack.readCov_unit_same arg7.view (k0_off1_inb i h2) (k0_off2_inb i) hoff]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro; exact ReadBack.read_writes_whole (S := S1024x512) arg5.view _ ReadBack.zero2 _ _
  isplitl [HA]
  · iexists _; isplitr
    swap; · iexact HA
    ipureintro; exact ReadBack.read_writes_whole (S := S1024x4096) arg6.view _ ReadBack.zero2 _ _
  iexists _; isplitr
  swap; · iexact HB
  ipureintro; exact rfl

end Cert.KernelIdeal.Body

end
-- ==== Proof.IdealRunB.lean ====
/-
  The body at a later point of the first row (b = 0, k > 0): the first scratch is only read; tile k of the second receives
  (first scratch) · (w's tile k); that tile times (x's tile)ᵀ is added to the result block.
-/
import proofs.«146342_g75617194213527_cont_sun_c4_20_21_alg».proof.Proof.IdealTiles

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]
local notation "𝕄" => MT nD τ sig Unit (Elt F) ℕ (UR sig nD τ) ℕ

set_option maxHeartbeats 2000000 in
theorem runB (c : Dev nD) (i : grid0.Coords) (arg2 : Memref sig .tc .vmem S1024x4096 .f32) (harg2 : arg2.IsWhole) (arg3 : Memref sig .tc .vmem S4096x256 .f32) (harg3 : arg3.IsWhole) (arg4 : Memref sig .tc .vmem S512x256 .f32) (harg4 : arg4.IsWhole) (arg5 : Memref sig .tc .vmem S1024x512 .f32) (harg5 : arg5.IsWhole) (arg6 : Memref sig .tc .vmem S1024x4096 .bf16) (harg6 : arg6.IsWhole) (arg7 : Memref sig .tc .vmem S1024x4096 .bf16) (harg7 : arg7.IsWhole) (h1 : ¬ cond1 i) (h2 : cond2 i) (h3 : ¬ cond3 i) (h4 : cond4 i)
    (x0 : Vec F S1024x4096 .f32) (x1 : Vec F S4096x256 .f32) (x2 : Vec F S512x256 .f32) (xo : Vec F S1024x512 .f32)
    (xa xb : Vec F S1024x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare xa ∗ owns (c : Thread nD τ) arg7 fullShare xb
        ∗ (iprop(owns (c : Thread nD τ) arg2 fullShare x0 ∗ owns (c : Thread nD τ) arg3 fullShare x1 ∗ owns (c : Thread nD τ) arg4 fullShare x2 ∗ owns (c : Thread nD τ) arg5 fullShare (k0_pay4 (k0_pay2 xa x1) x2 xo) ∗ owns (c : Thread nD τ) arg6 fullShare xa ∗ owns (c : Thread nD τ) arg7 fullShare (putTile arg7 harg7 i h2 xb (k0_pay2 xa x1))) -∗ K ⟨⟩))
      ⊢ wp frame (wpE (defs₀ (F := F)) Variants.none c none) E (cc0__body i arg2 harg2 arg3 harg3 arg4 harg4 arg5 harg5 arg6 harg6 arg7 harg7) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%fa, %hfa, HA⟩, ⟨%fb, %hfb, HB⟩, Hk⟩
  obtain rfl := harg2.eq_unread hf0; obtain rfl := harg3.eq_unread hf1; obtain rfl := harg4.eq_unread hf2
  obtain rfl := harg5.eq_unread hf3; obtain rfl := harg6.eq_unread hfa; obtain rfl := harg7.eq_unread hfb
  sl_exec (disch := first | exact h1 | exact h2 | exact h3 | exact h4)
  sl_step
  sl_unfold_run_names
  have hoff : k0_off1 i = k0_off2 i := rfl
  simp only [ReadBack.readAt_whole_unread (S := S1024x4096) _ ReadBack.zero2, ReadBack.readAt_whole_unread (S := S4096x256) _ ReadBack.zero2,
    ReadBack.readAt_whole_unread (S := S512x256) _ ReadBack.zero2, ReadBack.readAt_whole_unread (S := S1024x512) _ ReadBack.zero2,
    View.readCov_unit_zero (S := S1024x4096) _ ReadBack.zero2, View.readCov_unit_zero (S := S1024x512) _ ReadBack.zero2,
    ReadBack.readCov_unit_same arg7.view (k0_off1_inb i h2) (k0_off2_inb i) hoff]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro; exact ReadBack.read_writes_whole (S := S1024x512) arg5.view _ ReadBack.zero2 _ _
  isplitl [HA]
  · iexists _; isplitr
    swap; · iexact HA
    ipureintro; exact harg6.read_unread _
  iexists _; isplitr
  swap; · iexact HB
  ipureintro; exact rfl

end Cert.KernelIdeal.Body

end
-- ==== Proof.IdealRunC.lean ====
/-
  The body at the first point of a later row (b > 0, k = 0): both scratch buffers are only read; the result block is set to
  (second scratch's tile 0) · (x's tile)ᵀ.
-/
import proofs.«146342_g75617194213527_cont_sun_c4_20_21_alg».proof.Proof.IdealTiles

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]
local notation "𝕄" => MT nD τ sig Unit (Elt F) ℕ (UR sig nD τ) ℕ

set_option maxHeartbeats 2000000 in
theorem runC (c : Dev nD) (i : grid0.Coords) (arg2 : Memref sig .tc .vmem S1024x4096 .f32) (harg2 : arg2.IsWhole) (arg3 : Memref sig .tc .vmem S4096x256 .f32) (harg3 : arg3.IsWhole) (arg4 : Memref sig .tc .vmem S512x256 .f32) (harg4 : arg4.IsWhole) (arg5 : Memref sig .tc .vmem S1024x512 .f32) (harg5 : arg5.IsWhole) (arg6 : Memref sig .tc .vmem S1024x4096 .bf16) (harg6 : arg6.IsWhole) (arg7 : Memref sig .tc .vmem S1024x4096 .bf16) (harg7 : arg7.IsWhole) (h1 : ¬ cond1 i) (h2 : ¬ cond2 i) (h3 : cond3 i) (h4 : ¬ cond4 i)
    (x0 : Vec F S1024x4096 .f32) (x1 : Vec F S4096x256 .f32) (x2 : Vec F S512x256 .f32) (xo : Vec F S1024x512 .f32)
    (xa xb : Vec F S1024x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare xa ∗ owns (c : Thread nD τ) arg7 fullShare xb
        ∗ (iprop(owns (c : Thread nD τ) arg2 fullShare x0 ∗ owns (c : Thread nD τ) arg3 fullShare x1 ∗ owns (c : Thread nD τ) arg4 fullShare x2 ∗ owns (c : Thread nD τ) arg5 fullShare (k0_pay3 (getTile i xb) x2) ∗ owns (c : Thread nD τ) arg6 fullShare xa ∗ owns (c : Thread nD τ) arg7 fullShare xb) -∗ K ⟨⟩))
      ⊢ wp frame (wpE (defs₀ (F := F)) Variants.none c none) E (cc0__body i arg2 harg2 arg3 harg3 arg4 harg4 arg5 harg5 arg6 harg6 arg7 harg7) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%fa, %hfa, HA⟩, ⟨%fb, %hfb, HB⟩, Hk⟩
  obtain rfl := harg2.eq_unread hf0; obtain rfl := harg3.eq_unread hf1; obtain rfl := harg4.eq_unread hf2
  obtain rfl := harg5.eq_unread hf3; obtain rfl := harg6.eq_unread hfa; obtain rfl := harg7.eq_unread hfb
  sl_exec (disch := first | exact h1 | exact h2 | exact h3 | exact h4)
  sl_step
  sl_unfold_run_names
  have e7 : View.readAt (Elt F) arg7.view (Rect.unit (s := S1024x4096) (k0_off2 i) S1024x256.size (k0_off2_inb i)).toLoadRect (harg7.unread xb)
      = getTile i xb := by
    rw [View.readAt_eq_ld, harg7.read_unread]; rfl
  simp only [e7, ReadBack.readAt_whole_unread (S := S1024x4096) _ ReadBack.zero2, ReadBack.readAt_whole_unread (S := S4096x256) _ ReadBack.zero2,
    ReadBack.readAt_whole_unread (S := S512x256) _ ReadBack.zero2, ReadBack.readAt_whole_unread (S := S1024x512) _ ReadBack.zero2]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro; exact ReadBack.read_writes_whole (S := S1024x512) arg5.view _ ReadBack.zero2 _ _
  isplitl [HA]
  · iexists _; isplitr
    swap; · iexact HA
    ipureintro; exact harg6.read_unread _
  iexists _; isplitr
  swap; · iexact HB
  ipureintro; exact harg7.read_unread _

end Cert.KernelIdeal.Body

end
-- ==== Proof.IdealRunD.lean ====
/-
  The body at a later point of a later row (b > 0, k > 0): both scratch buffers are only read; (second scratch's tile k) ·
  (x's tile)ᵀ is added to the result block.
-/
import proofs.«146342_g75617194213527_cont_sun_c4_20_21_alg».proof.Proof.IdealTiles

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]
local notation "𝕄" => MT nD τ sig Unit (Elt F) ℕ (UR sig nD τ) ℕ

set_option maxHeartbeats 2000000 in
theorem runD (c : Dev nD) (i : grid0.Coords) (arg2 : Memref sig .tc .vmem S1024x4096 .f32) (harg2 : arg2.IsWhole) (arg3 : Memref sig .tc .vmem S4096x256 .f32) (harg3 : arg3.IsWhole) (arg4 : Memref sig .tc .vmem S512x256 .f32) (harg4 : arg4.IsWhole) (arg5 : Memref sig .tc .vmem S1024x512 .f32) (harg5 : arg5.IsWhole) (arg6 : Memref sig .tc .vmem S1024x4096 .bf16) (harg6 : arg6.IsWhole) (arg7 : Memref sig .tc .vmem S1024x4096 .bf16) (harg7 : arg7.IsWhole) (h1 : ¬ cond1 i) (h2 : ¬ cond2 i) (h3 : ¬ cond3 i) (h4 : cond4 i)
    (x0 : Vec F S1024x4096 .f32) (x1 : Vec F S4096x256 .f32) (x2 : Vec F S512x256 .f32) (xo : Vec F S1024x512 .f32)
    (xa xb : Vec F S1024x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare xa ∗ owns (c : Thread nD τ) arg7 fullShare xb
        ∗ (iprop(owns (c : Thread nD τ) arg2 fullShare x0 ∗ owns (c : Thread nD τ) arg3 fullShare x1 ∗ owns (c : Thread nD τ) arg4 fullShare x2 ∗ owns (c : Thread nD τ) arg5 fullShare (k0_pay4 (getTile i xb) x2 xo) ∗ owns (c : Thread nD τ) arg6 fullShare xa ∗ owns (c : Thread nD τ) arg7 fullShare xb) -∗ K ⟨⟩))
      ⊢ wp frame (wpE (defs₀ (F := F)) Variants.none c none) E (cc0__body i arg2 harg2 arg3 harg3 arg4 harg4 arg5 harg5 arg6 harg6 arg7 harg7) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%fa, %hfa, HA⟩, ⟨%fb, %hfb, HB⟩, Hk⟩
  obtain rfl := harg2.eq_unread hf0; obtain rfl := harg3.eq_unread hf1; obtain rfl := harg4.eq_unread hf2
  obtain rfl := harg5.eq_unread hf3; obtain rfl := harg6.eq_unread hfa; obtain rfl := harg7.eq_unread hfb
  sl_exec (disch := first | exact h1 | exact h2 | exact h3 | exact h4)
  sl_step
  sl_unfold_run_names
  have e7 : View.readAt (Elt F) arg7.view (Rect.unit (s := S1024x4096) (k0_off2 i) S1024x256.size (k0_off2_inb i)).toLoadRect (harg7.unread xb)
      = getTile i xb := by
    rw [View.readAt_eq_ld, harg7.read_unread]; rfl
  simp only [e7, ReadBack.readAt_whole_unread (S := S1024x4096) _ ReadBack.zero2, ReadBack.readAt_whole_unread (S := S4096x256) _ ReadBack.zero2,
    ReadBack.readAt_whole_unread (S := S512x256) _ ReadBack.zero2, ReadBack.readAt_whole_unread (S := S1024x512) _ ReadBack.zero2]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro; exact ReadBack.read_writes_whole (S := S1024x512) arg5.view _ ReadBack.zero2 _ _
  isplitl [HA]
  · iexists _; isplitr
    swap; · iexact HA
    ipureintro; exact harg6.read_unread _
  iexists _; isplitr
  swap; · iexact HB
  ipureintro; exact harg7.read_unread _

end Cert.KernelIdeal.Body

end
-- ==== Proof.IdealFrame.lean ====
/-
  The run of the whole kernel, point by point, with what every buffer holds after each point named.

  Write W = wout narrowed, T_k = W · (w's tile k) narrowed (a [1024, 256] tile), and for point t = 16b + k let x_t be x's
  block (b, k). Then after point t
    * the first scratch holds W;
    * tiles 0 … min(t, 15) of the second scratch hold T_0 … T_min(t,15) (its other tiles hold whatever the buffer was
      allocated with, which is why this is stated as a property of the contents and not as the contents);
    * the result's staging buffer holds out_t, where out_t = T_k · x_tᵀ when k = 0 and out_(t-1) + T_k · x_tᵀ otherwise.
  The four cases of the body (first point; rest of the first row; first point of a later row; the rest) each preserve
  this, which is the body obligation; the launch theorem then gives the run, and the run gives the frame.
-/
import proofs.«146342_g75617194213527_cont_sun_c4_20_21_alg».proof.Proof.IdealRunA
import proofs.«146342_g75617194213527_cont_sun_c4_20_21_alg».proof.Proof.IdealRunB
import proofs.«146342_g75617194213527_cont_sun_c4_20_21_alg».proof.Proof.IdealRunC
import proofs.«146342_g75617194213527_cont_sun_c4_20_21_alg».proof.Proof.IdealRunD

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N128 : cfg0.N = 128 := N_0

/-- The first point. -/
abbrev t0 : Fin cfg0.N := ⟨0, Nat.lt_of_lt_of_eq (by omega : 0 < 128) N128.symm⟩
/-- The point of the first row with point t's second coordinate k: the point at which tile k was computed. -/
def kpt (t : Fin cfg0.N) : Fin cfg0.N := ⟨t.val % 16, Nat.lt_of_lt_of_eq (by omega : t.val % 16 < 128) N128.symm⟩

theorem kpt_val (t : Fin cfg0.N) : (kpt t).val = t.val % 16 := rfl
theorem kpt_of_lt (t : Fin cfg0.N) (h : t.val < 16) : kpt t = t := Fin.ext (by rw [kpt_val]; omega)

/-- W: wout, narrowed — what the first scratch holds from the first point on. -/
def Wb (c : Dev nD) : Vec F S1024x4096 .bf16 := k0_pay1 (iblk m c 0 t0)
/-- T_k for k the second coordinate of t' (t' a point of the first row): W · (w's block at t'), narrowed. -/
def Ttile (c : Dev nD) (t' : Fin cfg0.N) : Vec F S1024x256 .bf16 := k0_pay2 (Wb m c) (iblk m c 1 t')

/-- out_t: what the result's staging buffer holds after point t. -/
def outAt (c : Dev nD) : (n : ℕ) → n < cfg0.N → Vec F S1024x512 .f32
  | 0, hn => k0_pay3 (Ttile m c (kpt ⟨0, hn⟩)) (iblk m c 2 ⟨0, hn⟩)
  | n + 1, hn =>
    if (n + 1) % 16 = 0 then k0_pay3 (Ttile m c (kpt ⟨n + 1, hn⟩)) (iblk m c 2 ⟨n + 1, hn⟩)
    else k0_pay4 (Ttile m c (kpt ⟨n + 1, hn⟩)) (iblk m c 2 ⟨n + 1, hn⟩) (outAt c n (Nat.lt_of_succ_lt hn))

/-- At k = 0 the block is set. -/
theorem outAt_set (c : Dev nD) (t : Fin cfg0.N) (h : t.val % 16 = 0) :
    outAt m c t.val t.isLt = k0_pay3 (Ttile m c (kpt t)) (iblk m c 2 t) := by
  obtain ⟨n, hn⟩ := t
  cases n with
  | zero => rfl
  | succ n => exact if_pos h

/-- At k > 0 it is added to. -/
theorem outAt_add (c : Dev nD) (t : Fin cfg0.N) (h : ¬ t.val % 16 = 0) :
    outAt m c t.val t.isLt
      = k0_pay4 (Ttile m c (kpt t)) (iblk m c 2 t) (outAt m c (t.val - 1) (Nat.lt_of_le_of_lt (Nat.sub_le _ _) t.isLt)) := by
  obtain ⟨n, hn⟩ := t
  cases n with
  | zero => exact absurd (Nat.zero_mod _) h
  | succ n => exact if_neg h

/-- Tiles 0 … min(n, 15) of contents X of the second scratch are T_0 … T_min(n,15). -/
def TilesOk (c : Dev nD) (n : ℕ) (X : Vec F S1024x4096 .bf16) : Prop :=
  ∀ t' : Fin cfg0.N, t'.val ≤ n → t'.val < 16 → getTile (grid0.coords t') X = Ttile m c t'

/-- The region's invariant before position n: before the first point both scratch buffers hold anything; afterwards the
    first holds W and the second has its first tiles right. The generator register is at some state throughout. -/
def PhiS (c : Dev nD) : (n : ℕ) → n ≤ cfg0.N → sProp 𝕄
  | 0, _ => Pipeline.ΦA spec0 c
  | n + 1, _ => iprop(iprop(owns (c : Thread nD τ) scA fullShare (Wb m c) ∗ (∃ X, ⌜TilesOk m c n X⌝ ∗ owns (c : Thread nD τ) scB fullShare X)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scA fullShare (Wb m c) ∗ (∃ X, ⌜TilesOk m c n X⌝ ∗ owns (c : Thread nD τ) scB fullShare X)) ∗ (∃ r, prngReg c r)) := rfl

theorem PhiS_pos (c : Dev nD) (n : ℕ) (h : n ≤ cfg0.N) (hz : n ≠ 0) :
    PhiS m c n h = iprop(iprop(owns (c : Thread nD τ) scA fullShare (Wb m c) ∗ (∃ X, ⌜TilesOk m c (n - 1) X⌝ ∗ owns (c : Thread nD τ) scB fullShare X)) ∗ (∃ r, prngReg c r)) := by
  cases n with
  | zero => exact absurd rfl hz
  | succ n => rfl

/-! ## The proof data -/

/-- The arrays as the region finds them; after the body each input's buffer at its block and the result's at out_t; the
    invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outAt m c t.val t.isLt := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- At k = 0 the result's staging buffer is fresh (the first point, or the point after a write-back): it holds anything. -/
theorem before3_fresh (c : Dev nD) (t : Fin cfg0.N) (h : t.val % 16 = 0) (d) : (dats m 0 c).before 3 t d = d :=
  Dat.before_out_reset (dats m 0 c) 3 rfl t
    (if hz : t.val = 0 then .inl hz else .inr ⟨hz, flushBefore t h hz⟩) d

/-- At k > 0 it holds what the body left at the point before: no write-back in between, the window live and uncut. -/
theorem before3_kept (c : Dev nD) (t : Fin cfg0.N) (h : ¬ t.val % 16 = 0) (d) :
    (dats m 0 c).before 3 t d = outAt m c (t.val - 1) (Nat.lt_of_le_of_lt (Nat.sub_le _ _) t.isLt) := by
  rw [Dat.before_out_kept (dats m 0 c) 3 rfl t (fun hz => h (by rw [hz])) (noFlushBefore t h) live3 (fun _ _ => rfl)]
  dsimp only [dats]

/-! ## The body obligation -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves_eq (c : Dev nD) (t : Fin cfg0.N) (w : Fin cfg0.W) :
    (dats m 0 c).leavesExact w t = owns (c : Thread nD τ) ((cfg0.win w).stage (cfg0.slots t w)) fullShare ((dats m 0 c).after w t) := by
  unfold Dat.leavesExact; rw [live0 w t]

/-- Replacing tile k at a point of the first row keeps the earlier tiles and makes tile k right. -/
theorem tilesOk_put (c : Dev nD) (t : Fin cfg0.N) (ht : t.val < 16) (h2 : cond2 (grid0.coords t)) (X : Vec F S1024x4096 .bf16)
    (hX : ∀ t' : Fin cfg0.N, t'.val < t.val → getTile (grid0.coords t') X = Ttile m c t') :
    TilesOk m c t.val (putTile scB hscB (grid0.coords t) h2 X (Ttile m c t)) := by
  intro t' hle hlt
  by_cases he : t'.val = t.val
  · obtain rfl : t' = t := Fin.ext he
    exact getTile_putTile_same scB hscB _ h2 X _
  · rw [getTile_putTile_other scB hscB (grid0.coords t) (grid0.coords t') h2 X _ (by
      rw [off1_eq t, off2_eq t']; omega)]
    exact hX t' (by omega)

set_option maxHeartbeats 4000000 in
/-- The body at any point: the inputs' buffers hold their blocks; the closed forms of the conditions say which of the four
    cases the point is in; the invariant hands the body the two scratch buffers (at anything before the first point, at W
    and at contents with the first tiles right afterwards) and takes them back with one more tile right. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, leaves_eq, after0, after1, after2, after3]
  rw [show (dats m 0 c).owesAt () t.succ = (dats m 0 c).owesAt () t.castSucc from rfl]
  rw [show (dats m 0 c).Φ t.succ = PhiS m c (t.val + 1) t.isLt from rfl, PhiS_succ, PhiS_castSucc m c t]
  have hN : t.val < 128 := lt_of_lt_of_eq t.isLt N128
  by_cases hz : t.val = 0
  · -- the first point
    have hk : t.val % 16 = 0 := by rw [hz]
    have h1 := (hcond1 t).mpr hz
    have h2 := (hcond2 t).mpr (by omega)
    have h3 := (hcond3 t).mpr hk
    have h4 : ¬ cond4 (grid0.coords t) := fun h => (hcond4 t).mp h hk
    obtain rfl : t = t0 := Fin.ext hz
    simp only [before3_fresh m c t0 hk]
    rw [PhiS_zero m c _ _ rfl, PhiA_eq, outAt_set m c t0 hk, kpt_of_lt t0 (by omega)]
    iintro ⟨⟨⟨⟨%da, HA⟩, ⟨%db, HB⟩⟩, Hg⟩, Ho, ⟨%d0, H0⟩, ⟨%d1, H1⟩, ⟨%d2, H2⟩, ⟨%d3, H3⟩⟩
    iapply (runA c (grid0.coords t0) _ _ _ _ _ _ _ _ scA hscA scB hscB h1 h2 h3 h4 (iblk m c 0 t0) (iblk m c 1 t0) (iblk m c 2 t0) d3 da db Set.univ _)
    isplitl [H0]; · iexact H0
    isplitl [H1]; · iexact H1
    isplitl [H2]; · iexact H2
    isplitl [H3]; · iexact H3
    isplitl [HA]; · iexact HA
    isplitl [HB]; · iexact HB
    iintro ⟨H0, H1, H2, H3, HA, HB⟩
    isplitl [HA HB Hg]
    · isplitl [HA HB]
      · isplitl [HA]; · iexact HA
        iexists _; isplitr
        · ipureintro
          exact tilesOk_put m c t0 (by omega) h2 db (fun t' h => absurd h (Nat.not_lt_zero _))
        iexact HB
      iexact Hg
    isplitl [Ho]; · iexact Ho
    isplitl [H0]; · iexact H0
    isplitl [H1]; · iexact H1
    isplitl [H2]; · iexact H2
    iexact H3
  · rw [PhiS_pos m c _ _ hz]
    by_cases hb : t.val < 16
    · -- the rest of the first row
      have hk : ¬ t.val % 16 = 0 := by omega
      have h1 : ¬ cond1 (grid0.coords t) := fun h => hz ((hcond1 t).mp h)
      have h2 := (hcond2 t).mpr hb
      have h3 : ¬ cond3 (grid0.coords t) := fun h => hk ((hcond3 t).mp h)
      have h4 := (hcond4 t).mpr hk
      simp only [before3_kept m c t hk]
      rw [outAt_add m c t hk, kpt_of_lt t hb]
      iintro ⟨⟨⟨HA, ⟨%X, %hX, HB⟩⟩, Hg⟩, Ho, ⟨%d0, H0⟩, ⟨%d1, H1⟩, ⟨%d2, H2⟩, ⟨%d3, H3⟩⟩
      iapply (runB c (grid0.coords t) _ _ _ _ _ _ _ _ scA hscA scB hscB h1 h2 h3 h4 (iblk m c 0 t) (iblk m c 1 t) (iblk m c 2 t) _ (Wb m c) X Set.univ _)
      isplitl [H0]; · iexact H0
      isplitl [H1]; · iexact H1
      isplitl [H2]; · iexact H2
      isplitl [H3]; · iexact H3
      isplitl [HA]; · iexact HA
      isplitl [HB]; · iexact HB
      iintro ⟨H0, H1, H2, H3, HA, HB⟩
      isplitl [HA HB Hg]
      · isplitl [HA HB]
        · isplitl [HA]; · iexact HA
          iexists _; isplitr
          · ipureintro
            exact tilesOk_put m c t hb h2 X (fun t' h => hX t' (by omega) (by omega))
          iexact HB
        iexact Hg
      isplitl [Ho]; · iexact Ho
      isplitl [H0]; · iexact H0
      isplitl [H1]; · iexact H1
      isplitl [H2]; · iexact H2
      iexact H3
    · have h1 : ¬ cond1 (grid0.coords t) := fun h => hz ((hcond1 t).mp h)
      have h2 : ¬ cond2 (grid0.coords t) := fun h => hb ((hcond2 t).mp h)
      by_cases hk : t.val % 16 = 0
      · -- the first point of a later row
        have h3 := (hcond3 t).mpr hk
        have h4 : ¬ cond4 (grid0.coords t) := fun h => (hcond4 t).mp h hk
        simp only [before3_fresh m c t hk]
        rw [outAt_set m c t hk]
        iintro ⟨⟨⟨HA, ⟨%X, %hX, HB⟩⟩, Hg⟩, Ho, ⟨%d0, H0⟩, ⟨%d1, H1⟩, ⟨%d2, H2⟩, ⟨%d3, H3⟩⟩
        have hT : getTile (grid0.coords t) X = Ttile m c (kpt t) :=
          (getTile_congr t (kpt t) (by rw [kpt_val]; omega) X).trans (hX (kpt t) (by rw [kpt_val]; omega) (by rw [kpt_val]; omega))
        rw [← hT]
        iapply (runC c (grid0.coords t) _ _ _ _ _ _ _ _ scA hscA scB hscB h1 h2 h3 h4 (iblk m c 0 t) (iblk m c 1 t) (iblk m c 2 t) d3 (Wb m c) X Set.univ _)
        isplitl [H0]; · iexact H0
        isplitl [H1]; · iexact H1
        isplitl [H2]; · iexact H2
        isplitl [H3]; · iexact H3
        isplitl [HA]; · iexact HA
        isplitl [HB]; · iexact HB
        iintro ⟨H0, H1, H2, H3, HA, HB⟩
        isplitl [HA HB Hg]
        · isplitl [HA HB]
          · isplitl [HA]; · iexact HA
            iexists _; isplitr
            · ipureintro
              exact fun t' hle hlt => hX t' (by omega) hlt
            iexact HB
          iexact Hg
        isplitl [Ho]; · iexact Ho
        isplitl [H0]; · iexact H0
        isplitl [H1]; · iexact H1
        isplitl [H2]; · iexact H2
        iexact H3
      · -- the rest
        have h3 : ¬ cond3 (grid0.coords t) := fun h => hk ((hcond3 t).mp h)
        have h4 := (hcond4 t).mpr hk
        simp only [before3_kept m c t hk]
        rw [outAt_add m c t hk]
        iintro ⟨⟨⟨HA, ⟨%X, %hX, HB⟩⟩, Hg⟩, Ho, ⟨%d0, H0⟩, ⟨%d1, H1⟩, ⟨%d2, H2⟩, ⟨%d3, H3⟩⟩
        have hT : getTile (grid0.coords t) X = Ttile m c (kpt t) :=
          (getTile_congr t (kpt t) (by rw [kpt_val]; omega) X).trans (hX (kpt t) (by rw [kpt_val]; omega) (by rw [kpt_val]; omega))
        rw [← hT]
        iapply (runD c (grid0.coords t) _ _ _ _ _ _ _ _ scA hscA scB hscB h1 h2 h3 h4 (iblk m c 0 t) (iblk m c 1 t) (iblk m c 2 t) _ (Wb m c) X Set.univ _)
        isplitl [H0]; · iexact H0
        isplitl [H1]; · iexact H1
        isplitl [H2]; · iexact H2
        isplitl [H3]; · iexact H3
        isplitl [HA]; · iexact HA
        isplitl [HB]; · iexact HB
        iintro ⟨H0, H1, H2, H3, HA, HB⟩
        isplitl [HA HB Hg]
        · isplitl [HA HB]
          · isplitl [HA]; · iexact HA
            iexists _; isplitr
            · ipureintro
              exact fun t' hle hlt => hX t' (by omega) hlt
            iexact HB
          iexact Hg
        isplitl [Ho]; · iexact Ho
        isplitl [H0]; · iexact H0
        isplitl [H1]; · iexact H1
        isplitl [H2]; · iexact H2
        iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch buffers back, their contents forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last, N128]; omega), PhiA_eq]
  iintro ⟨⟨HA, ⟨%X, -, HB⟩⟩, Hg⟩
  isplitl [HA HB]
  · isplitl [HA]; · iexists _; iexact HA
    iexists _; iexact HB
  iexact Hg

/-! ## The run and the frame -/

set_option backward.isDefEq.respectTransparency.types false in
/-- Every weakly fair execution of the program terminates, faulting nowhere, with the result array at what the library
    computes from the proof data and every other array as launched. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end and its three argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.IdealPayload.lean ====
/-
  The body's four payloads at the extended reals, read at an index.

  There a change of float format is the identity and a matrix product into a zero accumulator is the plain sum over the
  contraction axis, so
    * the first payload (wout narrowed) is wout itself;
    * the second, at (o, i), is ∑_j W(o, j) · w(j, i)       — a [1024, 4096] by [4096, 256] product;
    * the third, at (o, r), is ∑_i T(o, i) · x(r, i)         — a [1024, 256] by [512, 256]ᵀ product (both contract axis 1);
    * the fourth is the previous block plus the third.
-/
import proofs.«146342_g75617194213527_cont_sun_c4_20_21_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

namespace Cert.KernelIdeal.Val

open Idealize.ShloMosaic Idealize.ShloMosaic.ValueIdx Cert.KernelIdeal Cert.KernelIdeal.Gen

/-- Narrowing is the identity: the first scratch holds wout. -/
theorem pay1_eq (x : Vec Ideal S1024x4096 .f32) : k0_pay1 (F := Ideal) x = x := by
  unfold k0_pay1
  simp only [shapeCast_self]
  rfl

/-! ### The first product's operand indices: output (o, i), contraction index j ↦ (o, j) and (j, i) -/

theorem d1_lhs (y : S1024x256.Idx) (q : dot_S1024x4096_S4096x256_S1024x256_1_0_0_1_n_n.contr.Idx) (o : Fin 1024) (i : Fin 256) (hy : y = ix2 o i) (j : Fin 4096)
    (hq : (q ⟨0, by decide⟩).val = j.val) : dot_S1024x4096_S4096x256_S1024x256_1_0_0_1_n_n.lhsIdx y q = ix2 o j := by
  subst hy
  funext a; apply Fin.ext
  match a with
  | ⟨0, _⟩ =>
    show (dot_S1024x4096_S4096x256_S1024x256_1_0_0_1_n_n.lhsIdx (ix2 o i) q 0).val = o.val
    unfold DotDims.lhsIdx
    rw [dif_neg (show ¬(0 : Fin S1024x4096.rank) ∈ dot_S1024x4096_S4096x256_S1024x256_1_0_0_1_n_n.lhsBatch by decide), dif_pos (show (0 : Fin S1024x4096.rank) ∈ dot_S1024x4096_S4096x256_S1024x256_1_0_0_1_n_n.lhsNonContracting by decide)]
    rfl
  | ⟨1, _⟩ => exact (dot_S1024x4096_S4096x256_S1024x256_1_0_0_1_n_n.lhsIdx_val_of_single rfl (ix2 o i) q).trans hq

theorem d1_rhs (y : S1024x256.Idx) (q : dot_S1024x4096_S4096x256_S1024x256_1_0_0_1_n_n.contr.Idx) (o : Fin 1024) (i : Fin 256) (hy : y = ix2 o i) (j : Fin 4096)
    (hq : (q ⟨0, by decide⟩).val = j.val) : dot_S1024x4096_S4096x256_S1024x256_1_0_0_1_n_n.rhsIdx y q = ix2 j i := by
  subst hy
  funext a; apply Fin.ext
  match a with
  | ⟨0, _⟩ => exact (dot_S1024x4096_S4096x256_S1024x256_1_0_0_1_n_n.rhsIdx_val_of_single rfl (ix2 o i) q).trans hq
  | ⟨1, _⟩ =>
    show (dot_S1024x4096_S4096x256_S1024x256_1_0_0_1_n_n.rhsIdx (ix2 o i) q 1).val = i.val
    unfold DotDims.rhsIdx
    rw [dif_neg (show ¬(1 : Fin S4096x256.rank) ∈ dot_S1024x4096_S4096x256_S1024x256_1_0_0_1_n_n.rhsBatch by decide), dif_pos (show (1 : Fin S4096x256.rank) ∈ dot_S1024x4096_S4096x256_S1024x256_1_0_0_1_n_n.rhsNonContracting by decide)]
    rfl

/-- The second payload at (o, i): row o of W against column i of the tile of w. -/
theorem pay2_apply (W : Vec Ideal S1024x4096 .bf16) (wb : Vec Ideal S4096x256 .f32) (o : Fin 1024) (i : Fin 256) :
    k0_pay2 (F := Ideal) W wb (ix2 o i) = ∑ j : Fin 4096, W (ix2 o j) * wb (ix2 j i) := by
  unfold k0_pay2
  simp only [shapeCast_self, matmul]
  rw [truncf_apply, Ideal.matmul_constant_zero_apply, ← Equiv.sum_comp (contrEquiv1 dot_S1024x4096_S4096x256_S1024x256_1_0_0_1_n_n 4096 rfl rfl).symm]
  refine Finset.sum_congr rfl fun j _ => ?_
  have hj := contrEquiv1_symm_val dot_S1024x4096_S4096x256_S1024x256_1_0_0_1_n_n 4096 rfl rfl j
  rw [d1_lhs _ _ o i rfl j hj, d1_rhs _ _ o i rfl j hj, truncf_apply]

/-! ### The second product's operand indices: output (o, r), contraction index i ↦ (o, i) and (r, i) -/

theorem d2_lhs (y : S1024x512.Idx) (q : dot_S1024x256_S512x256_S1024x512_1_1_0_0_n_n.contr.Idx) (o : Fin 1024) (r : Fin 512) (hy : y = ix2 o r) (i : Fin 256)
    (hq : (q ⟨0, by decide⟩).val = i.val) : dot_S1024x256_S512x256_S1024x512_1_1_0_0_n_n.lhsIdx y q = ix2 o i := by
  subst hy
  funext a; apply Fin.ext
  match a with
  | ⟨0, _⟩ =>
    show (dot_S1024x256_S512x256_S1024x512_1_1_0_0_n_n.lhsIdx (ix2 o r) q 0).val = o.val
    unfold DotDims.lhsIdx
    rw [dif_neg (show ¬(0 : Fin S1024x256.rank) ∈ dot_S1024x256_S512x256_S1024x512_1_1_0_0_n_n.lhsBatch by decide), dif_pos (show (0 : Fin S1024x256.rank) ∈ dot_S1024x256_S512x256_S1024x512_1_1_0_0_n_n.lhsNonContracting by decide)]
    rfl
  | ⟨1, _⟩ => exact (dot_S1024x256_S512x256_S1024x512_1_1_0_0_n_n.lhsIdx_val_of_single rfl (ix2 o r) q).trans hq

theorem d2_rhs (y : S1024x512.Idx) (q : dot_S1024x256_S512x256_S1024x512_1_1_0_0_n_n.contr.Idx) (o : Fin 1024) (r : Fin 512) (hy : y = ix2 o r) (i : Fin 256)
    (hq : (q ⟨0, by decide⟩).val = i.val) : dot_S1024x256_S512x256_S1024x512_1_1_0_0_n_n.rhsIdx y q = ix2 r i := by
  subst hy
  funext a; apply Fin.ext
  match a with
  | ⟨0, _⟩ =>
    show (dot_S1024x256_S512x256_S1024x512_1_1_0_0_n_n.rhsIdx (ix2 o r) q 0).val = r.val
    unfold DotDims.rhsIdx
    rw [dif_neg (show ¬(0 : Fin S512x256.rank) ∈ dot_S1024x256_S512x256_S1024x512_1_1_0_0_n_n.rhsBatch by decide), dif_pos (show (0 : Fin S512x256.rank) ∈ dot_S1024x256_S512x256_S1024x512_1_1_0_0_n_n.rhsNonContracting by decide)]
    rfl
  | ⟨1, _⟩ => exact (dot_S1024x256_S512x256_S1024x512_1_1_0_0_n_n.rhsIdx_val_of_single rfl (ix2 o r) q).trans hq

/-- The third payload at (o, r): row o of the tile T against row r of the tile of x. -/
theorem pay3_apply (T : Vec Ideal S1024x256 .bf16) (xb : Vec Ideal S512x256 .f32) (o : Fin 1024) (r : Fin 512) :
    k0_pay3 (F := Ideal) T xb (ix2 o r) = ∑ i : Fin 256, T (ix2 o i) * xb (ix2 r i) := by
  unfold k0_pay3
  simp only [matmul]
  rw [Ideal.matmul_constant_zero_apply, ← Equiv.sum_comp (contrEquiv1 dot_S1024x256_S512x256_S1024x512_1_1_0_0_n_n 256 rfl rfl).symm]
  refine Finset.sum_congr rfl fun i _ => ?_
  have hi := contrEquiv1_symm_val dot_S1024x256_S512x256_S1024x512_1_1_0_0_n_n 256 rfl rfl i
  rw [d2_lhs _ _ o r rfl i hi, d2_rhs _ _ o r rfl i hi, truncf_apply]

/-- The fourth payload: the block so far plus the third. -/
theorem pay4_apply (T : Vec Ideal S1024x256 .bf16) (xb : Vec Ideal S512x256 .f32) (prev : Vec Ideal S1024x512 .f32) (y : S1024x512.Idx) :
    k0_pay4 (F := Ideal) T xb prev y = prev y + k0_pay3 (F := Ideal) T xb y := by
  unfold k0_pay4
  simp only [shapeCast_self]
  rfl

end Cert.KernelIdeal.Val

end
-- ==== Proof.IdealBlocks.lean ====
/-
  The kernel's result, entry by entry, at the extended reals.

  Write x [4096, 4096], w [4096, 4096], wout [1024, 4096] for the three argument arrays (batch × inputs, neurons × inputs,
  outputs × neurons) and T(o, i) = ∑_j wout(o, j) · w(j, i). Point t = 16b + k reads wout whole, w's columns
  [256k, 256k + 256) (while b = 0), x's rows [512b, 512b + 512) and columns [256k, 256k + 256), and owns the result's
  columns [512b, 512b + 512). Then
    * tile k of the second scratch, T_k, at (o, i) is T(o, 256k + i);
    * the result's staging buffer after point t, at (o, r), is ∑_{k' ≤ k} ∑_{i < 256} T(o, 256k' + i) · x(512b + r, 256k' + i)
      — by induction on the point: set at k = 0, one more tile's term added at each later k.
-/
import proofs.«146342_g75617194213527_cont_sun_c4_20_21_alg».proof.Proof.IdealFrame
import proofs.«146342_g75617194213527_cont_sun_c4_20_21_alg».proof.Proof.IdealPayload

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Body

variable (m : (ℓ : Loc nD τ sig) → Buf (Elt Ideal) ℓ)

/-! ## The windows' index maps, over the grid -/

theorem idx0 : ∀ t : Fin cfg0.N, win0_0.index t 0 = 0 ∧ win0_0.index t 1 = 0 :=
  (by decide +kernel : ∀ t : Fin grid0.N, win0_0.index t 0 = 0 ∧ win0_0.index t 1 = 0)
theorem idx1 : ∀ t : Fin cfg0.N, t.val < 16 → win0_1.index t 0 = 0 ∧ win0_1.index t 1 = t.val :=
  (by decide +kernel : ∀ t : Fin grid0.N, t.val < 16 → win0_1.index t 0 = 0 ∧ win0_1.index t 1 = t.val)
theorem idx2 : ∀ t : Fin cfg0.N, win0_2.index t 0 = t.val / 16 ∧ win0_2.index t 1 = t.val % 16 :=
  (by decide +kernel : ∀ t : Fin grid0.N, win0_2.index t 0 = t.val / 16 ∧ win0_2.index t 1 = t.val % 16)
theorem idx3 : ∀ t : Fin cfg0.N, win0_3.index t 0 = 0 ∧ win0_3.index t 1 = t.val / 16 :=
  (by decide +kernel : ∀ t : Fin grid0.N, win0_3.index t 0 = 0 ∧ win0_3.index t 1 = t.val / 16)

/-- The three argument arrays as functions into the extended reals: x (batch × inputs), w (neurons × inputs), wout (outputs × neurons). -/
abbrev argX (c : Dev nD) : S4096x4096.Idx → EReal := m ((c : Thread nD τ).loc main_arg0)
abbrev argW (c : Dev nD) : S4096x4096.Idx → EReal := m ((c : Thread nD τ).loc main_arg1)
abbrev argWout (c : Dev nD) : S1024x4096.Idx → EReal := m ((c : Thread nD τ).loc main_arg2)

/-! ## Each window's block, at an index, is an entry of its array -/

/-- wout's block is wout. -/
theorem iblk0_apply (c : Dev nD) (t : Fin cfg0.N) (o : Fin 1024) (j : Fin 4096) :
    (iblk m c 0 t : Vec Ideal S1024x4096 .f32) (ix2 o j) = argWout m c (ix2 o j) := by
  unfold iblk
  rw [View.read_apply]
  show m ((c : Thread nD τ).loc main_arg2) _ = m ((c : Thread nD τ).loc main_arg2) _
  congr 1
  funext a; apply Fin.ext
  match a with
  | ⟨0, _⟩ => show win0_0.index t 0 * 1024 + 1 * o.val = o.val; rw [(idx0 t).1]; omega
  | ⟨1, _⟩ => show win0_0.index t 1 * 4096 + 1 * j.val = j.val; rw [(idx0 t).2]; omega

/-- w's block at a point of the first row: columns [256k, 256k + 256). -/
theorem iblk1_apply (c : Dev nD) (t : Fin cfg0.N) (ht : t.val < 16) (j : Fin 4096) (i : Fin 256) (col : Fin 4096)
    (hcol : col.val = 256 * t.val + i.val) :
    (iblk m c 1 t : Vec Ideal S4096x256 .f32) (ix2 j i) = argW m c (ix2 j col) := by
  unfold iblk
  rw [View.read_apply]
  show m ((c : Thread nD τ).loc main_arg1) _ = m ((c : Thread nD τ).loc main_arg1) _
  congr 1
  funext a; apply Fin.ext
  match a with
  | ⟨0, _⟩ => show win0_1.index t 0 * 4096 + 1 * j.val = j.val; rw [(idx1 t ht).1]; omega
  | ⟨1, _⟩ => show win0_1.index t 1 * 256 + 1 * i.val = col.val; rw [(idx1 t ht).2, hcol]; omega

/-- x's block: rows [512b, 512b + 512), columns [256k, 256k + 256). -/
theorem iblk2_apply (c : Dev nD) (t : Fin cfg0.N) (r : Fin 512) (i : Fin 256) (row col : Fin 4096)
    (hrow : row.val = 512 * (t.val / 16) + r.val) (hcol : col.val = 256 * (t.val % 16) + i.val) :
    (iblk m c 2 t : Vec Ideal S512x256 .f32) (ix2 r i) = argX m c (ix2 row col) := by
  unfold iblk
  rw [View.read_apply]
  show m ((c : Thread nD τ).loc main_arg0) _ = m ((c : Thread nD τ).loc main_arg0) _
  congr 1
  funext a; apply Fin.ext
  match a with
  | ⟨0, _⟩ => show win0_2.index t 0 * 512 + 1 * r.val = row.val; rw [(idx2 t).1, hrow]; omega
  | ⟨1, _⟩ => show win0_2.index t 1 * 256 + 1 * i.val = col.val; rw [(idx2 t).2, hcol]; omega

/-! ## The tiles and the result buffer -/

/-- T(o, i) = ∑_j wout(o, j) · w(j, i). -/
def Tfun (c : Dev nD) (o : Fin 1024) (i : Fin 4096) : EReal :=
  ∑ j : Fin 4096, argWout m c (ix2 o j) * argW m c (ix2 j i)

/-- Tile k of T at (o, i) is T(o, 256k + i). -/
theorem Ttile_apply (c : Dev nD) (t : Fin cfg0.N) (ht : t.val < 16) (o : Fin 1024) (i : Fin 256) (col : Fin 4096)
    (hcol : col.val = 256 * t.val + i.val) : Ttile m c t (ix2 o i) = Tfun m c o col := by
  unfold Ttile Wb Tfun
  rw [pay1_eq, pay2_apply]
  refine Finset.sum_congr rfl fun j _ => ?_
  rw [iblk0_apply, iblk1_apply m c t ht j i col hcol]

/-- Tile k's term of the result at (o, col): ∑_{i < 256} T(o, 256k + i) · x(col, 256k + i). -/
def term (c : Dev nD) (o : Fin 1024) (col : Fin 4096) (k : Fin 16) : EReal :=
  ∑ i : Fin 256, Tfun m c o ⟨256 * k.val + i.val, by omega⟩ * argX m c (ix2 col ⟨256 * k.val + i.val, by omega⟩)

/-- What point t = 16b + k contributes to the result buffer at (o, r): tile k's term at column 512b + r. -/
theorem contrib_apply (c : Dev nD) (t : Fin cfg0.N) (o : Fin 1024) (r : Fin 512) (col : Fin 4096)
    (hcol : col.val = 512 * (t.val / 16) + r.val) (k : Fin 16) (hk : k.val = t.val % 16) :
    k0_pay3 (F := Ideal) (Ttile m c (kpt t)) (iblk m c 2 t) (ix2 o r) = term m c o col k := by
  rw [pay3_apply]
  unfold term
  refine Finset.sum_congr rfl fun i _ => ?_
  rw [Ttile_apply m c (kpt t) (by rw [kpt_val]; omega) o i ⟨256 * k.val + i.val, by omega⟩ (by show 256 * k.val + i.val = 256 * (kpt t).val + i.val; rw [kpt_val, hk]),
    iblk2_apply m c t r i col ⟨256 * k.val + i.val, by omega⟩ hcol (by show 256 * k.val + i.val = 256 * (t.val % 16) + i.val; rw [hk])]

/-- A sum over the tiles up to 0 is tile 0's term. -/
theorem sum_le_zero {M : Type} [AddCommMonoid M] (f : Fin 16 → M) (k : Fin 16) (hk : k.val = 0) :
    (∑ j : Fin 16, if j.val ≤ 0 then f j else 0) = f k := by
  rw [Finset.sum_eq_single k]
  · rw [if_pos (by omega)]
  · intro j _ hj
    rw [if_neg (fun h => hj (Fin.ext (by omega)))]
  · intro h; exact absurd (Finset.mem_univ k) h

/-- A sum over the tiles up to K + 1 is the sum up to K plus tile K + 1's term. -/
theorem sum_le_succ {M : Type} [AddCommMonoid M] (f : Fin 16 → M) (K : ℕ) (k : Fin 16) (hk : k.val = K + 1) :
    (∑ j : Fin 16, if j.val ≤ K + 1 then f j else 0) = (∑ j : Fin 16, if j.val ≤ K then f j else 0) + f k := by
  have h1 : f k = ∑ j : Fin 16, if j = k then f j else 0 := by
    rw [Finset.sum_ite_eq' Finset.univ k f, if_pos (Finset.mem_univ k)]
  rw [h1, ← Finset.sum_add_distrib]
  refine Finset.sum_congr rfl fun j _ => ?_
  by_cases hj : j.val ≤ K
  · rw [if_pos (by omega), if_pos hj, if_neg (fun h => by rw [h] at hj; omega), add_zero]
  · by_cases hjk : j = k
    · rw [if_pos (by rw [hjk]; omega), if_neg hj, if_pos hjk, zero_add]
    · rw [if_neg (fun h => hjk (Fin.ext (by omega))), if_neg hj, if_neg hjk, add_zero]

/-- THE RESULT BUFFER after point n = 16b + k, at (o, r): the terms of tiles 0 … k at column 512b + r. -/
theorem outAt_apply (c : Dev nD) : ∀ (n : ℕ) (hn : n < cfg0.N) (o : Fin 1024) (r : Fin 512) (col : Fin 4096),
    col.val = 512 * (n / 16) + r.val →
    outAt m c n hn (ix2 o r) = ∑ k : Fin 16, if k.val ≤ n % 16 then term m c o col k else 0 := by
  intro n
  induction n with
  | zero =>
    intro hn o r col hcol
    rw [outAt_set m c ⟨0, hn⟩ rfl, contrib_apply m c ⟨0, hn⟩ o r col hcol ⟨0, by omega⟩ rfl]
    exact (sum_le_zero _ ⟨0, by omega⟩ rfl).symm
  | succ n ih =>
    intro hn o r col hcol
    have hN : n + 1 < 128 := lt_of_lt_of_eq hn N128
    by_cases hk : (n + 1) % 16 = 0
    · rw [outAt_set m c ⟨n + 1, hn⟩ hk, contrib_apply m c ⟨n + 1, hn⟩ o r col hcol ⟨0, by omega⟩ hk.symm, hk]
      exact (sum_le_zero _ ⟨0, by omega⟩ rfl).symm
    · rw [outAt_add m c ⟨n + 1, hn⟩ hk, pay4_apply,
        contrib_apply m c ⟨n + 1, hn⟩ o r col hcol ⟨(n + 1) % 16, by omega⟩ rfl]
      have e : (n + 1) % 16 = n % 16 + 1 := by omega
      have ih' := ih (Nat.lt_of_succ_lt hn) o r col (by rw [hcol]; show 512 * ((n + 1) / 16) + r.val = 512 * (n / 16) + r.val; omega)
      show outAt m c n _ (ix2 o r) + _ = _
      rw [ih']
      conv_rhs => rw [e]
      exact (sum_le_succ _ (n % 16) ⟨(n + 1) % 16, by omega⟩ e).symm

end Cert.KernelIdeal.Val

end
-- ==== Proof.IdealFinal.lean ====
/-
  The kernel's result array, whole.

  Point t = 16b + 15 writes the staging buffer back to columns [512b, 512b + 512) of the result; by then the buffer holds
  all sixteen tiles' terms, so the array ends at
      G(o, col) = ∑_{k < 16} ∑_{i < 256} T(o, 256k + i) · x(col, 256k + i),       T(o, i) = ∑_j wout(o, j) · w(j, i).
  The eight write-backs (b = 0 … 7) cover the array's 4096 columns.
-/
import proofs.«146342_g75617194213527_cont_sun_c4_20_21_alg».proof.Proof.IdealBlocks

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Body

variable (m : (ℓ : Loc nD τ sig) → Buf (Elt Ideal) ℓ) (ρ : Dev nD → PrngReg)

/-- G(o, col): all sixteen tiles' terms. -/
def GAt (c : Dev nD) (o : Fin 1024) (col : Fin 4096) : EReal := ∑ k : Fin 16, term m c o col k

/-- G as the contents of the result array. -/
def G (c : Dev nD) : Buf (Elt Ideal) ((c : Thread nD τ).loc main_v0) :=
  fun y => GAt m c ⟨(y 0).val, (y 0).isLt⟩ ⟨(y 1).val, (y 1).isLt⟩

/-- What a flushing point writes back is its block of G. -/
theorem flushed_eq (c : Dev nD) (t : Fin cfg0.N) (hf : (cfg0.win 3).flush t = true) :
    (dats m 0 c).flushed 3 t = ((cfg0.win 3).blk t).view.read (Elt Ideal) (G m c) := by
  have hk : t.val % 16 = 15 := (flush0_3 t).mp hf
  have hN : t.val < 128 := lt_of_lt_of_eq t.isLt N128
  show (cfg0.win 3).cut (grid0.coords t) ((dats m 0 c).after 3 t) = _
  rw [after3]
  funext y
  have h0 : (y 0).val < 1024 := (y 0).isLt
  have h1 : (y 1).val < 512 := (y 1).isLt
  have hcolb : 512 * (t.val / 16) + (y 1).val < 4096 := by omega
  have eL : (cfg0.win 3).cut (grid0.coords t) (outAt m c t.val t.isLt) y
      = outAt m c t.val t.isLt (ix2 (⟨(y 0).val, h0⟩ : Fin 1024) (⟨(y 1).val, h1⟩ : Fin 512)) :=
    congrArg (outAt m c t.val t.isLt) (funext fun a => Fin.ext (by match a with | ⟨0, _⟩ => rfl | ⟨1, _⟩ => rfl))
  rw [eL, outAt_apply m c t.val t.isLt ⟨(y 0).val, h0⟩ ⟨(y 1).val, h1⟩ ⟨512 * (t.val / 16) + (y 1).val, hcolb⟩ rfl, View.read_apply]
  unfold G GAt
  show ((_ : EReal) = (_ : EReal))
  refine Finset.sum_congr rfl fun k _ => ?_
  rw [if_pos (by have := k.isLt; omega)]
  congr 1 <;> apply Fin.ext
  · show (y 0).val = win0_3.index t 0 * 1024 + 1 * (y 0).val
    rw [(idx3 t).1]; omega
  · show 512 * (t.val / 16) + (y 1).val = win0_3.index t 1 * 512 + 1 * (y 1).val
    rw [(idx3 t).2]; omega

/-- Every column of the result is in some flushing point's block: column col in point 16 · (col / 512) + 15's. -/
theorem cover (c : Dev nD) (i : ((cfg0.win 3).arr.view.loc (c.tc : Thread nD τ)).2.ty.Idx) :
    ∃ t : Fin cfg0.N, (cfg0.win 3).flush t = true ∧ i ∈ ((cfg0.win 3).blk t).view.set := by
  have h0 : (i 0 : ℕ) < 1024 := (i 0).isLt
  have h1 : (i 1 : ℕ) < 4096 := (i 1).isLt
  let t : Fin cfg0.N := ⟨16 * ((i 1).val / 512) + 15, Nat.lt_of_lt_of_eq (by omega : 16 * ((i 1).val / 512) + 15 < 128) N128.symm⟩
  have htv : t.val = 16 * ((i 1).val / 512) + 15 := rfl
  refine ⟨t, (flush0_3 t).mpr (by rw [htv]; omega), ?_⟩
  show i ∈ ((View.whole main_v0).slice (win0_3.rect t)).set
  rw [View.set_slice_whole, Rect.mem_set_unit]
  intro a
  match a with
  | ⟨0, _⟩ =>
    show win0_3.index t 0 * 1024 ≤ (i 0 : ℕ) ∧ (i 0 : ℕ) < win0_3.index t 0 * 1024 + 1024
    rw [(idx3 t).1]; omega
  | ⟨1, _⟩ =>
    show win0_3.index t 1 * 512 ≤ (i 1 : ℕ) ∧ (i 1 : ℕ) < win0_3.index t 1 * 512 + 512
    rw [(idx3 t).2, htv]; omega

/-- So the result array ends holding G. -/
theorem final (c : Dev nD) : (dats m 0 c).arrAt 3 cfg0.N = G m c :=
  (dats m 0 c).arrAt_eq_of_cover 3 (G m c) (flushed_eq m c) (cover c)

/-- The kernel's run, read: the result array at G, the three arguments unchanged. -/
theorem run : θ_run defs (onTc (τ := τ) (main (F := Ideal))) ⟨m, fun _ => 0, ρ⟩ fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 3).trans (final m c),
      ((h c).1 2).trans (((dats m 0 c).arrAt_in 2 rfl _).trans ((A_eq m c 2).trans (V_main_arg0 m c))),
      ((h c).1 1).trans (((dats m 0 c).arrAt_in 1 rfl _).trans ((A_eq m c 1).trans (V_main_arg1 m c))),
      ((h c).1 0).trans (((dats m 0 c).arrAt_in 0 rfl _).trans ((A_eq m c 0).trans (V_main_arg2 m c)))⟩)
    (run_main m ρ)

end Cert.KernelIdeal.Val

end
-- ==== Proof.IdealFinite.lean ====
/-
  What the precondition says: every entry of the three argument arrays is a real number.

  The printed predicate is "all |x| < +inf, and all |w| < +inf, and all |wout| < +inf" as one word. At the extended reals
  |x| is max x (-x) and the comparison is the order's, so |x| < +inf fails exactly at the two infinities: an entry that
  passes it is a real.
-/
import proofs.«146342_g75617194213527_cont_sun_c4_20_21_alg».proof.Defs
import proofs.«146342_g75617194213527_cont_sun_c4_20_21_alg».proof.Proof.Gen.Pre_finite_inputs
import Idealize.ShloMosaic.Lib.ReduceAll
import Idealize.ShloMosaic.Lib.ValueIdx
import Idealize.ShloMosaic.PureOps.Ideal.Laws

set_option maxRecDepth 16384

noncomputable section

namespace Cert.KernelIdeal.Val

open Idealize.ShloMosaic Idealize.ShloMosaic.ValueIdx Idealize.SL.Sem

/-- An extended real whose absolute value compares below the float pattern of +inf is a real. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | top => simp [Ideal.cmp] at h
  | coe r => exact ⟨r, rfl⟩

instance : Subsingleton Cert.Pre_finite_inputs.S_.Idx := ⟨fun a b => funext fun d => d.elim0⟩

/-- One "all |x| < +inf" of the predicate, at an entry. -/
theorem real_of_all {s : Shape} [hF : Cert.Pre_finite_inputs.Facts] (x : FVec Ideal s .f32)
    (bc : Cert.Pre_finite_inputs.S_.BroadcastsInDim s (![] : Fin 0 → Fin s.rank)) {axes : List (Fin s.rank)} (red : s.ReducesTo axes Cert.Pre_finite_inputs.S_)
    (hu : 0 < Cert.Pre_finite_inputs.S_.numel)
    (e : Host.reduce IntOp.andi (cmpf .olt (Host.absf x) (broadcastInDim s ![] bc (constant (F := Ideal) Cert.Pre_finite_inputs.S_ .f32 0x7F800000#32)))
          (constantI Cert.Pre_finite_inputs.S_ 1 1#1) red hu ix0 = 1#1) (i : s.Idx) : ∃ r : ℝ, x i = (r : EReal) := by
  have h := Host.reduce_andi_all _ _ red hu ix0 e i
  exact real_of_abs_lt (x i) h

/-- Under the precondition every entry of the three argument arrays is a real. -/
theorem reals_of_pre [hF : Cert.Pre_finite_inputs.Facts] (a0 a1 : FVec Ideal Cert.Pre_finite_inputs.S4096x4096 .f32)
    (a2 : FVec Ideal Cert.Pre_finite_inputs.S1024x4096 .f32)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ix0
  dsimp only [Cert.Pre_finite_inputs.fn] at h0
  obtain ⟨h01, h2⟩ := IntOp.andi_eq_one.mp h0
  obtain ⟨h0', h1⟩ := IntOp.andi_eq_one.mp h01
  exact ⟨real_of_all a0 _ _ _ h0', real_of_all a1 _ _ _ h1, real_of_all a2 _ _ _ h2⟩

end Cert.KernelIdeal.Val

end
-- ==== Proof.LibMatAssoc.lean ====
/-
  Two facts about finite sums, free of any program.

  (1) For REAL matrices the product re-brackets: ∑_n (∑_j a_j · b_jn) · c_n = ∑_j a_j · (∑_n b_jn · c_n). On the extended
      reals this is false in general (a product does not distribute over a sum that mixes +inf and -inf), so it is stated for
      entries that are reals, carried into the extended reals: both sides are then the image of one real number.
  (2) A sum over 4096 indices is the sum over 16 tiles of 256: n = 256k + i.
-/
import Idealize.ShloMosaic.PureOps.Ideal.Laws

noncomputable section

namespace MatAssoc

open Finset

/-- The image of a finite real sum in the extended reals is the sum of the images. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- (a·B)·c = a·(B·c) for a real row a, a real matrix B and a real column c, stated in the extended reals. -/
theorem assoc_real {ι κ : Type*} [Fintype ι] [Fintype κ] (a : ι → ℝ) (b : ι → κ → ℝ) (c : κ → ℝ) :
    (∑ n : κ, (∑ j : ι, (a j : EReal) * (b j n : EReal)) * (c n : EReal))
      = ∑ j : ι, (a j : EReal) * ∑ n : κ, (b j n : EReal) * (c n : EReal) := by
  have hl : ∀ n, (∑ j : ι, (a j : EReal) * (b j n : EReal)) * (c n : EReal) = (((∑ j : ι, a j * b j n) * c n : ℝ) : EReal) := fun n => by
    rw [EReal.coe_mul, coe_sum]; simp only [EReal.coe_mul]
  have hr : ∀ j, (a j : EReal) * ∑ n : κ, (b j n : EReal) * (c n : EReal) = ((a j * ∑ n : κ, b j n * c n : ℝ) : EReal) := fun j => by
    rw [EReal.coe_mul, coe_sum]; simp only [EReal.coe_mul]
  simp only [hl, hr, ← coe_sum]
  congr 1
  simp only [Finset.sum_mul, Finset.mul_sum]
  rw [Finset.sum_comm]
  refine Finset.sum_congr rfl fun j _ => Finset.sum_congr rfl fun n _ => ?_
  ring

/-- The same for extended-real entries each of which is a real. -/
theorem assoc_of_real {ι κ : Type*} [Fintype ι] [Fintype κ] (A : ι → EReal) (B : ι → κ → EReal) (C : κ → EReal)
    (hA : ∀ j, ∃ r : ℝ, A j = (r : EReal)) (hB : ∀ j n, ∃ r : ℝ, B j n = (r : EReal)) (hC : ∀ n, ∃ r : ℝ, C n = (r : EReal)) :
    (∑ n : κ, (∑ j : ι, A j * B j n) * C n) = ∑ j : ι, A j * ∑ n : κ, B j n * C n := by
  choose a ha using hA
  choose b hb using hB
  choose c hc using hC
  simp only [ha, hb, hc]
  exact assoc_real a b c

/-- A sum over 4096 indices, tile by tile: 16 tiles of 256. -/
theorem sum_tiles {M : Type*} [AddCommMonoid M] (f : Fin 4096 → M) :
    (∑ k : Fin 16, ∑ i : Fin 256, f ⟨256 * k.val + i.val, by omega⟩) = ∑ n : Fin 4096, f n := by
  have h := Fintype.sum_prod_type' (fun (k : Fin 16) (i : Fin 256) => f ⟨256 * k.val + i.val, by omega⟩)
  rw [← h]
  refine Fintype.sum_equiv (finProdFinEquiv (m := 16) (n := 256)) _ (fun n : Fin (16 * 256) => f n) (fun p => ?_)
  show f _ = f _
  congr 1
  apply Fin.ext
  show 256 * p.1.val + p.2.val = (finProdFinEquiv p).val
  simp [finProdFinEquiv]
  omega

end MatAssoc

end
-- ==== Proof.IdealBridge.lean ====
/-
  The two programs compute one function of finite arguments.

  The reference is out(o, col) = ∑_j wout(o, j) · (∑_n w(j, n) · x(col, n)): first s = w · xᵀ, then wout · s. The kernel
  is G(o, col) = ∑_n (∑_j wout(o, j) · w(j, n)) · x(col, n), the contraction over n taken sixteen tiles of 256 at a time:
  first t = wout · w, then t · xᵀ. Putting the tiles together is a re-indexing; moving the brackets is the associativity
  of the matrix product, which holds because under the precondition every entry is a real number.
-/
import proofs.«146342_g75617194213527_cont_sun_c4_20_21_alg».proof.Proof.IdealFinal
import proofs.«146342_g75617194213527_cont_sun_c4_20_21_alg».proof.Proof.IdealFinite
import proofs.«146342_g75617194213527_cont_sun_c4_20_21_alg».proof.Proof.LibMatAssoc
import proofs.«146342_g75617194213527_cont_sun_c4_20_21_alg».proof.Proof.Gen.ReferenceIdeal.Read

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Body

/-- The reference's result at (o, col): row o of wout against column col of w · xᵀ. -/
theorem ref_apply (x w : S4096x4096.Idx → EReal) (wout : S1024x4096.Idx → EReal) (o : Fin 1024) (col : Fin 4096) :
    Cert.ReferenceIdeal.Read.val_main_v2 (F := Ideal) x w wout (ix2 o col)
      = ∑ j : Fin 4096, wout (ix2 o j) * ∑ n : Fin 4096, w (ix2 j n) * x (ix2 col n) := by
  rw [Cert.ReferenceIdeal.Read.val_main_v2_apply]
  refine Finset.sum_congr rfl fun j _ => ?_
  rw [Cert.ReferenceIdeal.Read.val_main_v1_apply]
  have e1 : Cert.ReferenceIdeal.Read.lidx_main_v2 (ix2 o col) j = ix2 o j :=
    funext fun a => Fin.ext (by match a with | ⟨0, _⟩ => rfl | ⟨1, _⟩ => rfl)
  rw [e1]
  congr 1
  refine Finset.sum_congr rfl fun n _ => ?_
  rw [Cert.ReferenceIdeal.Read.val_main_v0_apply]
  have e2 : Cert.ReferenceIdeal.Read.lidx_main_v1 (Cert.ReferenceIdeal.Read.ridx_main_v2 (ix2 o col) j) n = ix2 j n :=
    funext fun a => Fin.ext (by match a with | ⟨0, _⟩ => rfl | ⟨1, _⟩ => rfl)
  have e3 : Cert.ReferenceIdeal.Read.idx_main_v0 (Cert.ReferenceIdeal.Read.ridx_main_v1 (Cert.ReferenceIdeal.Read.ridx_main_v2 (ix2 o col) j) n) = ix2 col n :=
    funext fun a => Fin.ext (by match a with | ⟨0, _⟩ => rfl | ⟨1, _⟩ => rfl)
  rw [e2, e3]

variable (m : (ℓ : Loc nD τ sig) → Buf (Elt Ideal) ℓ)

/-- For real entries the kernel's result array is the reference's term of the same three arrays. -/
theorem G_eq_ref (c : Dev nD) (hx : ∀ i, ∃ r : ℝ, argX m c i = (r : EReal)) (hw : ∀ i, ∃ r : ℝ, argW m c i = (r : EReal))
    (hwo : ∀ i, ∃ r : ℝ, argWout m c i = (r : EReal)) :
    G m c = Cert.ReferenceIdeal.Read.val_main_v2 (F := Ideal) (argX m c) (argW m c) (argWout m c) := by
  funext y
  obtain ⟨o, col, rfl⟩ : ∃ (o : Fin 1024) (col : Fin 4096), y = ix2 o col := ⟨y 0, y 1, eq_ix2 y⟩
  rw [ref_apply]
  show GAt m c o col = _
  unfold GAt term
  refine (MatAssoc.sum_tiles (fun n => Tfun m c o n * argX m c (ix2 col n))).trans ?_
  unfold Tfun
  exact MatAssoc.assoc_of_real (fun j => argWout m c (ix2 o j)) (fun j n => argW m c (ix2 j n)) (fun n => argX m c (ix2 col n))
    (fun j => hwo _) (fun j n => hw _) (fun n => hx _)

end Cert.KernelIdeal.Val

end
-- ==== Proof.lean ====
/-
  out = wout · (w · xᵀ) against a kernel that computes (wout · w) · xᵀ.

  The arguments are x [4096, 4096] (batch × inputs), w [4096, 4096] (neurons × inputs) and wout [1024, 4096] (outputs ×
  neurons). The reference forms s = w · xᵀ and then wout · s. The kernel runs a grid of 8 × 16 points (b, k): during
  the first row (b = 0) it narrows wout into one scratch buffer and fills a second, tile by tile, with t = wout · w (tile k
  is t's columns [256k, 256k + 256)); at every point it multiplies t's tile k by x's block (b, k) transposed and sets
  (k = 0) or adds to (k > 0) the result's block b, which is written back after k = 15.

  * The three frames. The reference is straight-line host code; its frame is its run with the result dropped. The kernel's
    frame, at the machine's words and at the extended reals alike, follows from one body obligation proved generically in
    the float type: the four control cases of the body are run symbolically, each buffer's contents afterwards stated
    outright, and the region's invariant records that after point t the first scratch holds wout narrowed and tiles
    0 … min(t, 15) of the second hold the corresponding tiles of t.
  * The idealization rewrote nothing, so there is nothing to preserve.
  * Equality at the extended reals. There narrowing is the identity and each matrix-unit product is a plain sum, so the
    result buffer after point (b, k) holds ∑_{k' ≤ k} ∑_{i < 256} t(o, 256k' + i) · x(512b + r, 256k' + i), and the array ends at
    ∑_n (∑_j wout(o, j) · w(j, n)) · x(col, n). The reference is ∑_j wout(o, j) · (∑_n w(j, n) · x(col, n)). The two agree by the
    associativity of the matrix product — a law of the reals that fails at the infinities, so it is here that the
    precondition (every entry finite, hence a real) is used.
-/
import proofs.«146342_g75617194213527_cont_sun_c4_20_21_alg».proof.Defs
import proofs.«146342_g75617194213527_cont_sun_c4_20_21_alg».proof.Proof.Gen.Kernel
import proofs.«146342_g75617194213527_cont_sun_c4_20_21_alg».proof.Proof.Gen.KernelIdeal
import proofs.«146342_g75617194213527_cont_sun_c4_20_21_alg».proof.Proof.Gen.ReferenceIdeal
import proofs.«146342_g75617194213527_cont_sun_c4_20_21_alg».proof.Proof.Gen.Pre_finite_inputs
import proofs.«146342_g75617194213527_cont_sun_c4_20_21_alg».proof.Proof.Gen.ReferenceIdeal.Run
import proofs.«146342_g75617194213527_cont_sun_c4_20_21_alg».proof.Proof.Gen.ReferenceIdeal.Read
import proofs.«146342_g75617194213527_cont_sun_c4_20_21_alg».proof.Proof.BitsFrame
import proofs.«146342_g75617194213527_cont_sun_c4_20_21_alg».proof.Proof.IdealBridge
import Idealize.ShloMosaic.Adequacy
import Idealize.ShloMosaic.Init

noncomputable section

namespace Cert.Proof

open Idealize.ShloMosaic Idealize.SL.Sem

/-- The kernel, at the machine's words, runs to the end and leaves its arguments as they were. -/
theorem frame_k : Cert.frame_Kernel := fun m ρ _ => Cert.Kernel.Body.frame m ρ

/-- The same at the extended reals. -/
theorem frame_ki : Cert.frame_KernelIdeal := fun m ρ _ => Cert.KernelIdeal.Body.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From memories that agree on x, w and wout, all finite, both programs end with the same result array: the kernel at
    (wout · w) · xᵀ taken tile by tile, the reference at wout · (w · xᵀ), one function of real arguments. -/
theorem algebraic : Cert.algebraic_KernelIdeal_ReferenceIdeal := by
  intro m ρ m' ρ' hpre hagree
  refine ⟨fun c => Cert.KernelIdeal.Val.G m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v2_eq]
  obtain ⟨hx, hw, hwo⟩ := Cert.KernelIdeal.Val.reals_of_pre _ _ _ (hpre c)
  exact (Cert.KernelIdeal.Val.G_eq_ref m c hx hw hwo).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
